-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128 .f32) (main_arg9 : FVec F S128x128 .f32) (main_arg10 : FVec F S128 .f32) (main_arg11 : FVec F S128x1 .f32) (main_arg12 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg12 main_v48 main_v49 main_v50

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : FVec F S50000x3 .f32) (main_arg2 : IVec S2x800000 32) (main_arg3 : FVec F S257x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S1x128 : Shape := ⟨2, ![1, 128]⟩
abbrev S3200x128 : Shape := ⟨2, ![3200, 128]⟩
abbrev S3200x3 : Shape := ⟨2, ![3200, 3]⟩
abbrev S3200 : Shape := ⟨1, ![3200]⟩
abbrev S3200x1 : Shape := ⟨2, ![3200, 1]⟩
abbrev S1x1 : Shape := ⟨2, ![1, 1]⟩
abbrev S5000x128 : Shape := ⟨2, ![5000, 128]⟩

abbrev nBuf : Space → Nat
  | .hbm => 75
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x128, .bf16⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .bf16⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x3, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x3, .f32⟩
  | .hbm, ⟨54, _⟩ => ⟨S800000x3, .f32⟩
  | .hbm, ⟨55, _⟩ => ⟨S128x128, .f32⟩
  | .hbm, ⟨56, _⟩ => ⟨S128x128, .f32⟩
  | .hbm, ⟨57, _⟩ => ⟨S1x128, .f32⟩
  | .hbm, ⟨58, _⟩ => ⟨S128, .f32⟩
  | .hbm, ⟨59, _⟩ => ⟨S128, .f32⟩
  | .hbm, ⟨60, _⟩ => ⟨S800000x128, .bf16⟩
  | .hbm, ⟨61, _⟩ => ⟨S800000x3, .f32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S_, .f32⟩
  | .hbm, ⟨68, _⟩ => ⟨S50000x3, .f32⟩
  | .hbm, ⟨69, _⟩ => ⟨S800000x1, .i32⟩
  | .hbm, ⟨70, _⟩ => ⟨S50000x3, .f32⟩
  | .hbm, ⟨71, _⟩ => ⟨S128x128, .f32⟩
  | .hbm, ⟨72, _⟩ => ⟨S128x128, .f32⟩
  | .hbm, ⟨73, _⟩ => ⟨S50000x128, .f32⟩
  | .hbm, ⟨74, _⟩ => ⟨S50000x3, .f32⟩
  | .local _ .vmem, ⟨0, _⟩ => ⟨S3200x128, .bf16⟩
  | .local _ .vmem, ⟨1, _⟩ => ⟨S3200x128, .bf16⟩
  | .local _ .vmem, ⟨2, _⟩ => ⟨S3200x128, .bf16⟩
  | .local _ .vmem, ⟨3, _⟩ => ⟨S3200x128, .bf16⟩
  | .local _ .vmem, ⟨4, _⟩ => ⟨S3200x3, .f32⟩
  | .local _ .vmem, ⟨5, _⟩ => ⟨S3200x3, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128, .f32⟩
  | .local _ .vmem, ⟨13, _⟩ => ⟨S1, .f32⟩
  | .local _ .vmem, ⟨14, _⟩ => ⟨S3200x128, .bf16⟩
  | .local _ .vmem, ⟨15, _⟩ => ⟨S3200x128, .bf16⟩
  | .local _ .vmem, ⟨16, _⟩ => ⟨S3200x3, .f32⟩
  | .local _ .vmem, ⟨17, _⟩ => ⟨S3200x3, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S128x128, .f32⟩
  | .local _ .vmem, ⟨26, _⟩ => ⟨S128, .f32⟩
  | .local _ .vmem, ⟨27, _⟩ => ⟨S5000x128, .f32⟩
  | .local _ .vmem, ⟨28, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39_0 : Ref sig .tc := ⟨.hbm, 60, rfl⟩
abbrev main_v39_1 : Ref sig .tc := ⟨.hbm, 61, rfl⟩
abbrev main_v40 : Ref sig .tc := ⟨.hbm, 62, rfl⟩
abbrev main_cst : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3200x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3200x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S1x128_S128 : S1x128.ShapeCasts S128
  shapeCasts_S128x1_S128 : S128x1.ShapeCasts S128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S3200x3_S3200x3_0_0 : ∀ a, (![0, 0] : Fin 2 → Nat) a + S3200x3.size a ≤ S3200x3.size a
  h_S3200x3 : 0 < S3200x3.numel
  shapeCasts_S3200x3_S3200x3 : S3200x3.ShapeCasts S3200x3
  reduces_S3200x3_S3200 : S3200x3.Reduces [1] S3200
  shapeCasts_S3200_S3200x1 : S3200.ShapeCasts S3200x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S3200x1_S3200x128 : S3200x1.Broadcasts S3200x128
  broadcasts_S1x128_S3200x128 : S1x128.Broadcasts S3200x128
  packedbf16_S3200x128_S3200x128_0_0 : (Rect.unit (s := S3200x128) ![0, 0] S3200x128.size inb_S3200x128_S3200x128_0_0).PackedRows (EltTy.packing .bf16)
  reduces_S3200x128_S3200 : S3200x128.Reduces [1] S3200
  inb_S1_S1_0 : ∀ a, (![0] : Fin 1 → Nat) a + S1.size a ≤ S1.size a
  h_S1 : 0 < S1.numel
  shapeCasts_S1_S1x1 : S1.ShapeCasts S1x1
  broadcasts_S1x1_S3200x1 : S1x1.Broadcasts S3200x1
  broadcasts_S3200x1_S3200x3 : S3200x1.Broadcasts S3200x3
  bcast_S_S50000x128 : S_.BroadcastsInDim S50000x128 (![] : Fin 0 → Fin S50000x128.rank)
  bcast_S_S50000x3 : S_.BroadcastsInDim S50000x3 (![] : Fin 0 → Fin S50000x3.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S3200x128_S128x128_S3200x128_1_0_0_1_n_n_wf : DotDims.WF S3200x128 S128x128 S3200x128 [1] [0] [0] [1] [] []
  scatter_S50000x128_S800000x1_S800000x128_1_0_0_1_wf : ScatterDims.WF S50000x128 S800000x1 S800000x128 [1] [0] [0] 1
  scatter_S50000x3_S800000x1_S800000x3_1_0_0_1_wf : ScatterDims.WF S50000x3 S800000x1 S800000x3 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .bf16 = 32 ∨ (Rect.block (s := S800000x128) S3200x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .bf16 = 32 ∨ (Rect.block (s := S800000x128) S3200x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x3.size a ≤ S800000x3.size a
  hwx0_2 : ∀ i : grid0.Coords, EltTy.bits .f32 = 32 ∨ (Rect.block (s := S800000x3) S3200x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3200x128.size a ≤ S800000x128.size a
  hwx0_11 : ∀ i : grid0.Coords, EltTy.bits .bf16 = 32 ∨ (Rect.block (s := S800000x128) S3200x128.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3200x3.size a ≤ S800000x3.size a
  hwx0_12 : ∀ i : grid0.Coords, EltTy.bits .f32 = 32 ∨ (Rect.block (s := S800000x3) S3200x3.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S3200x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v38) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v39_0) S3200x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v39_1) S3200x3.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x257 : Shape := ⟨2, ![800000, 257]⟩
abbrev S1x128 : Shape := ⟨2, ![1, 128]⟩
abbrev S50000x256 : Shape := ⟨2, ![50000, 256]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S50000x3, .f32⟩
  | 2 => ⟨S2x800000, .i32⟩
  | 3 => ⟨S257x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x3, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x3, .f32⟩
  | 35 => ⟨S800000x3, .f32⟩
  | 36 => ⟨S800000x3, .f32⟩
  | 37 => ⟨S_, .f32⟩
  | 38 => ⟨S800000, .f32⟩
  | 39 => ⟨S800000x1, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x257, .f32⟩
  | 59 => ⟨S800000x128, .f32⟩
  | 60 => ⟨S1x128, .f32⟩
  | 61 => ⟨S800000x128, .f32⟩
  | 62 => ⟨S800000x128, .f32⟩
  | 63 => ⟨S800000x128, .f32⟩
  | 64 => ⟨S800000x128, .f32⟩
  | 65 => ⟨S_, .f32⟩
  | 66 => ⟨S800000x128, .f32⟩
  | 67 => ⟨S800000x128, .f32⟩
  | 68 => ⟨S_, .f32⟩
  | 69 => ⟨S800000x128, .f32⟩
  | 70 => ⟨S800000x128, .f32⟩
  | 71 => ⟨S800000x128, .f32⟩
  | 72 => ⟨S800000x128, .f32⟩
  | 73 => ⟨S1x128, .f32⟩
  | 74 => ⟨S800000x128, .f32⟩
  | 75 => ⟨S800000x128, .f32⟩
  | 76 => ⟨S800000x128, .f32⟩
  | 77 => ⟨S800000x128, .f32⟩
  | 78 => ⟨S_, .f32⟩
  | 79 => ⟨S800000x128, .f32⟩
  | 80 => ⟨S800000x128, .f32⟩
  | 81 => ⟨S_, .f32⟩
  | 82 => ⟨S800000x128, .f32⟩
  | 83 => ⟨S800000x128, .f32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S50000x256, .f32⟩
  | 90 => ⟨S50000x128, .f32⟩
  | 91 => ⟨S1x128, .f32⟩
  | 92 => ⟨S50000x128, .f32⟩
  | 93 => ⟨S50000x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S50000x128, .f32⟩
  | 108 => ⟨S800000x1, .f32⟩
  | 109 => ⟨S1x1, .f32⟩
  | 110 => ⟨S800000x1, .f32⟩
  | 111 => ⟨S800000x1, .f32⟩
  | 112 => ⟨S800000x1, .f32⟩
  | 113 => ⟨S800000x1, .f32⟩
  | 114 => ⟨S_, .f32⟩
  | 115 => ⟨S800000x1, .f32⟩
  | 116 => ⟨S800000x1, .f32⟩
  | 117 => ⟨S_, .f32⟩
  | 118 => ⟨S800000x1, .f32⟩
  | 119 => ⟨S800000x1, .f32⟩
  | 120 => ⟨S800000x1, .f32⟩
  | 121 => ⟨S800000x3, .f32⟩
  | 122 => ⟨S_, .f32⟩
  | 123 => ⟨S800000, .f32⟩
  | 124 => ⟨S800000x1, .f32⟩
  | 125 => ⟨S800000x1, .f32⟩
  | 126 => ⟨S_, .f32⟩
  | 127 => ⟨S800000x1, .f32⟩
  | _ => ⟨S50000x128, .f32⟩

abbrev hbmTy0_1 (i : Nat) : BufTy := match i % 128 with
  | 0 => ⟨S800000x1, .f32⟩
  | 1 => ⟨S800000x3, .f32⟩
  | 2 => ⟨S800000x3, .f32⟩
  | 3 => ⟨S800000x3, .f32⟩
  | 4 => ⟨S800000x3, .f32⟩
  | 5 => ⟨S_, .f32⟩
  | 6 => ⟨S50000x3, .f32⟩
  | 7 => ⟨S800000x1, .i32⟩
  | 8 => ⟨S50000x3, .f32⟩
  | 9 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v46 : Ref sig .tc := ⟨.hbm, 84, rfl⟩
abbrev main_cst_7 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_call3_v0 : Ref sig .tc := ⟨.hbm, 112, rfl⟩
abbrev main_call3_v1 : Ref sig .tc := ⟨.hbm, 113, rfl⟩
abbrev main_call3_cst : Ref sig .tc := ⟨.hbm, 114, rfl⟩
abbrev main_call3_v2 : Ref sig .tc := ⟨.hbm, 115, rfl⟩
abbrev main_call3_v3 : Ref sig .tc := ⟨.hbm, 116, rfl⟩
abbrev main_call3_cst_0 : Ref sig .tc := ⟨.hbm, 117, rfl⟩
abbrev main_call3_v4 : Ref sig .tc := ⟨.hbm, 118, rfl⟩
abbrev main_call3_v5 : Ref sig .tc := ⟨.hbm, 119, rfl⟩
abbrev main_v65 : Ref sig .tc := ⟨.hbm, 120, rfl⟩
abbrev main_call4_v0 : Ref sig .tc := ⟨.hbm, 121, rfl⟩
abbrev main_call4_cst : Ref sig .tc := ⟨.hbm, 122, rfl⟩
abbrev main_call4_v1 : Ref sig .tc := ⟨.hbm, 123, rfl⟩
abbrev main_call4_v2 : Ref sig .tc := ⟨.hbm, 124, rfl⟩
abbrev main_v66 : Ref sig .tc := ⟨.hbm, 125, rfl⟩
abbrev main_cst_8 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_cst_9 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.KernelRun.lean ====
/-
  The idealized kernel's run with its two results named.  The program is five segments — host operations, the edge
  stage's region, host operations, the node stage's region, host operations — and the generated frame module launches them
  and reads the argument arrays off the last thread state.  Here the same launch is read at the two result buffers as
  well: each ends holding what the fold of the segments leaves there.
-/
import proofs.«181461_j11742440587289_2_alg».proof.Proof.KernelIdealFrame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes unfolding
-- plain definitions in a metavariable's type
set_option backward.isDefEq.respectTransparency.types false in
/-- The run with its two results named: at the compiled mesh, from any memory with zero counters, every weakly fair execution of
    @main terminates, nothing faulting, and the final state holds at each result buffer what the fold of the segments
    leaves there (`W5`), and the argument arrays as launched. The launch is the one of the frame; only what is read off the
    last thread state differs. -/
theorem run_results : θ_run defs (onTc (τ := τ) (main (F := F))) ⟨m, fun _ => 0, ρ⟩ (fun r => ∀ c : Dev nD,
      r.2.mem ((c.tc : Thread nD τ).loc main_v49) = W5 m ρ c (Proc.devRef .tc main_v49)
      ∧ r.2.mem ((c.tc : Thread nD τ).loc main_v50) = W5 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v49 (by decide)), h c _ (mem_uc main_v50 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Cert.KernelIdeal.Results

end
-- ==== Proof.Spec.lean ====
/-
  The two stages of an equivariant graph layer on the extended reals, one row at a time.

  An edge carries the feature rows a and b of its two end nodes (128 numbers each) and the difference r of their
  positions (3 numbers), with squared length d = Σ_j r_j².  The edge stage is
      h_c  = silu( (Σ_k a_k·A(k,c) + Σ_k b_k·B(k,c)) + d·u_c + p_c )          (the hidden row)
      m_c  = silu( Σ_k h_k·W(k,c) + q_c )                                       (the message row)
      g    = silu( Σ_k m_k·v_k + s )                                            (the gate)
      δ_j  = r_j / (√d + ε) · g                                                 (the position shift)
  where silu y = y·σ(y), σ the logistic function, and ε the binary32 number nearest 1e-8.
  A node carries its feature row x and the sum z of the messages of its edges; the node stage is
      o_c  = x_c + ( Σ_k silu( (Σ_l x_l·P(l,k) + Σ_l z_l·Q(l,k)) + t_k )·R(k,c) + w_c ).
  Every row depends on its own edge, or its own node, only; that is why tiles of rows can be computed apart.

  Besides the definitions: a sum over 257 = 128 + 128 + 1 (and over 256 = 128 + 128) positions split into its parts,
  which is how one product with a stacked weight matrix becomes the sum of products with its blocks.
-/
import Idealize.ShloMosaic.PureOps.Ideal
import Idealize.ShloMosaic.Lib.ValueIdx

noncomputable section

open scoped BigOperators

namespace Cert.GraphLayer

open Idealize.ShloMosaic Idealize.ShloMosaic.ValueIdx

/-- silu y = y · σ(y). -/
def silu (y : EReal) : EReal := y * Ideal.logistic y

/-- The squared length of a 3-vector. -/
def sqLen (r : Fin 3 → EReal) : EReal := ∑ j : Fin 3, r j * r j

/-- The hidden row of an edge, before silu. -/
def hiddenPre (a b : Fin 128 → EReal) (d : EReal) (A B : (⟨2, ![128, 128]⟩ : Shape).Idx → EReal)
    (u p : (⟨1, ![128]⟩ : Shape).Idx → EReal) (c : Fin 128) : EReal :=
  (((∑ k : Fin 128, a k * A (ix2 k c)) + ∑ k : Fin 128, b k * B (ix2 k c)) + d * u (ix1 c)) + p (ix1 c)

/-- The message row of an edge, before silu. -/
def messagePre (a b : Fin 128 → EReal) (d : EReal) (A B : (⟨2, ![128, 128]⟩ : Shape).Idx → EReal)
    (u p : (⟨1, ![128]⟩ : Shape).Idx → EReal) (W : (⟨2, ![128, 128]⟩ : Shape).Idx → EReal)
    (q : (⟨1, ![128]⟩ : Shape).Idx → EReal) (c : Fin 128) : EReal :=
  (∑ k : Fin 128, silu (hiddenPre a b d A B u p k) * W (ix2 k c)) + q (ix1 c)

/-- The message row of an edge. -/
def message (a b : Fin 128 → EReal) (d : EReal) (A B : (⟨2, ![128, 128]⟩ : Shape).Idx → EReal)
    (u p : (⟨1, ![128]⟩ : Shape).Idx → EReal) (W : (⟨2, ![128, 128]⟩ : Shape).Idx → EReal)
    (q : (⟨1, ![128]⟩ : Shape).Idx → EReal) (c : Fin 128) : EReal :=
  silu (messagePre a b d A B u p W q c)

/-- The gate of an edge: silu of the message row against the vector v, plus s. -/
def gate (m : Fin 128 → EReal) (v : Fin 128 → EReal) (s : EReal) : EReal :=
  silu ((∑ k : Fin 128, m k * v k) + s)

/-- The position shift of an edge along coordinate j. -/
def shift (r : Fin 3 → EReal) (g : EReal) (j : Fin 3) : EReal :=
  Ideal.div (r j) (Ideal.sqrt (sqLen r) + Ideal.ofBits .f32 0x322BCC77#32) * g

/-- The new feature row of a node. -/
def nodeOut (x z : Fin 128 → EReal) (P Q : (⟨2, ![128, 128]⟩ : Shape).Idx → EReal) (t : (⟨1, ![128]⟩ : Shape).Idx → EReal)
    (R : (⟨2, ![128, 128]⟩ : Shape).Idx → EReal) (w : (⟨1, ![128]⟩ : Shape).Idx → EReal) (c : Fin 128) : EReal :=
  x c + ((∑ k : Fin 128, silu (((∑ l : Fin 128, x l * P (ix2 l k)) + ∑ l : Fin 128, z l * Q (ix2 l k)) + t (ix1 k)) * R (ix2 k c))
    + w (ix1 c))

/-! ## Blocks of rows of a stacked weight matrix -/

/-- Rows lo, …, lo + 127 of a matrix with n rows and 128 columns, as a 128 × 128 matrix. -/
def rows128 {n : Nat} (lo : Nat) (h : lo + 128 ≤ n) (W : (⟨2, ![n, 128]⟩ : Shape).Idx → EReal) :
    (⟨2, ![128, 128]⟩ : Shape).Idx → EReal :=
  fun j => W (ix2 (⟨lo + (j 0).val, by have h0 : (j 0).val < 128 := (j 0).isLt; omega⟩ : Fin n) (⟨(j 1).val, (j 1).isLt⟩ : Fin 128))

theorem rows128_apply {n : Nat} (lo : Nat) (h : lo + 128 ≤ n) (W : (⟨2, ![n, 128]⟩ : Shape).Idx → EReal) (k c : Fin 128) :
    rows128 lo h W (ix2 k c) = W (ix2 (⟨lo + k.val, by omega⟩ : Fin n) c) := rfl

/-- Row r of a matrix with 128 columns, as a vector. -/
def row1 {n : Nat} (r : Nat) (h : r < n) (W : (⟨2, ![n, 128]⟩ : Shape).Idx → EReal) : (⟨1, ![128]⟩ : Shape).Idx → EReal :=
  fun j => W (ix2 (⟨r, h⟩ : Fin n) (⟨(j 0).val, (j 0).isLt⟩ : Fin 128))

theorem row1_apply {n : Nat} (r : Nat) (h : r < n) (W : (⟨2, ![n, 128]⟩ : Shape).Idx → EReal) (c : Fin 128) :
    row1 r h W (ix1 c) = W (ix2 (⟨r, h⟩ : Fin n) c) := rfl

/-! ## A sum over stacked positions -/

/-- A sum over 128 + 128 positions is the sum over the first 128 plus the sum over the last 128. -/
theorem sum_256 (f : Fin 256 → EReal) :
    ∑ k : Fin 256, f k = (∑ k : Fin 128, f ⟨k.val, by omega⟩) + ∑ k : Fin 128, f ⟨128 + k.val, by omega⟩ := by
  have h := Fin.sum_univ_add (M := EReal) (a := 128) (b := 128) f
  rw [h]
  rfl

/-- A sum over 128 + 128 + 1 positions is the two sums over 128 plus the last term. -/
theorem sum_257 (f : Fin 257 → EReal) :
    ∑ k : Fin 257, f k
      = ((∑ k : Fin 128, f ⟨k.val, by omega⟩) + ∑ k : Fin 128, f ⟨128 + k.val, by omega⟩) + f ⟨256, by omega⟩ := by
  rw [Fin.sum_univ_castSucc (n := 256) f, sum_256]
  rfl

end Cert.GraphLayer

end
-- ==== Proof.BridgeEntry.lean ====
/-
  What the edge stage's region finds in its input arrays, as functions of the program's arguments.

  Before the region the host gathers the feature rows and the positions of every edge's two end nodes, subtracts the
  positions, and cuts the stacked first weight matrix into its two 128-row blocks and its last row.  The reference
  performs the same gathers and the same subtraction, so the gathered arrays are, operation for operation, the reference's
  own stages (rounding the features to 16 bits first changes nothing on the extended reals); the blocks of the weight
  matrix are read entry by entry.
-/
import proofs.«181461_j11742440587289_2_alg».proof.Proof.KernelIdealFrame
import proofs.«181461_j11742440587289_2_alg».proof.Proof.Gen.ReferenceIdeal.Read
import proofs.«181461_j11742440587289_2_alg».proof.Proof.Spec
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.ValueIdx Idealize.ShloMosaic.StableHlo
open Cert.KernelIdeal Cert.KernelIdeal.Gen Cert.GraphLayer

variable (m : (ℓ : Loc nD τ sig) → Buf (Elt Ideal) ℓ) (ρ : Dev nD → PrngReg) (c : Dev nD)

/-- The gathered feature rows of the edges' first end nodes. -/
theorem entry_v11 : (W1 m ρ c (Proc.devRef .tc main_v11) : S800000x128.Idx → EReal)
    = Cert.ReferenceIdeal.Read.val_main_v28 (F := Ideal) (m ((c : Thread nD τ).loc main_arg0)) (m ((c : Thread nD τ).loc main_arg2)) := by
  show StableHlo.after hostOps0 (W0 m ρ c) _ = _
  after_results_simp
  rfl

/-- The position differences. -/
theorem entry_v33 : (W1 m ρ c (Proc.devRef .tc main_v33) : S800000x3.Idx → EReal)
    = Cert.ReferenceIdeal.Read.val_main_v18 (F := Ideal) (m ((c : Thread nD τ).loc main_arg1)) (m ((c : Thread nD τ).loc main_arg2)) := by
  show StableHlo.after hostOps0 (W0 m ρ c) _ = _
  after_results_simp
  rfl

/-- The gathered feature rows of the edges' second end nodes. -/
theorem entry_v18 : (W1 m ρ c (Proc.devRef .tc main_v18) : S800000x128.Idx → EReal)
    = Cert.ReferenceIdeal.Read.val_main_v35 (F := Ideal) (m ((c : Thread nD τ).loc main_arg0)) (m ((c : Thread nD τ).loc main_arg2)) := by
  show StableHlo.after hostOps0 (W0 m ρ c) _ = _
  after_results_simp
  rfl

/-- The edges' first end nodes, as the segment sums use them. -/
theorem entry_v1 : W1 m ρ c (Proc.devRef .tc main_v1) = Cert.ReferenceIdeal.Read.val_main_v1 (F := Ideal) (m ((c : Thread nD τ).loc main_arg2)) := by
  show StableHlo.after hostOps0 (W0 m ρ c) _ = _
  after_results_simp
  rfl

/-- The first 128 rows of the stacked weight matrix. -/
theorem entry_v34 : (W1 m ρ c (Proc.devRef .tc main_v34) : S128x128.Idx → EReal)
    = rows128 0 (by omega) ((m ((c : Thread nD τ).loc main_arg3)) : S257x128.Idx → EReal) := by
  show StableHlo.after hostOps0 (W0 m ρ c) _ = _
  after_results_simp
  funext j
  unfold rows128
  exact extractStridedSlice_apply ![0, 0] (W0 m ρ c (Proc.devRef .tc main_arg3)) slices_S257x128_S128x128_0_0 j _ (fun a => match a with
    | ⟨0, _⟩ => by show 0 + (j 0).val = 0 + (j 0).val; rfl
    | ⟨1, _⟩ => by show (j 1).val = 0 + (j 1).val; omega)

/-- Its next 128 rows. -/
theorem entry_v35 : (W1 m ρ c (Proc.devRef .tc main_v35) : S128x128.Idx → EReal)
    = rows128 128 (by omega) ((m ((c : Thread nD τ).loc main_arg3)) : S257x128.Idx → EReal) := by
  show StableHlo.after hostOps0 (W0 m ρ c) _ = _
  after_results_simp
  funext j
  unfold rows128
  exact extractStridedSlice_apply ![128, 0] (W0 m ρ c (Proc.devRef .tc main_arg3)) slices_S257x128_S128x128_128_0 j _ (fun a => match a with
    | ⟨0, _⟩ => by show 128 + (j 0).val = 128 + (j 0).val; rfl
    | ⟨1, _⟩ => by show (j 1).val = 0 + (j 1).val; omega)

/-- Its last row, as a vector. -/
theorem entry_v37 : (W1 m ρ c (Proc.devRef .tc main_v37) : S128.Idx → EReal)
    = row1 256 (by omega) ((m ((c : Thread nD τ).loc main_arg3)) : S257x128.Idx → EReal) := by
  show StableHlo.after hostOps0 (W0 m ρ c) _ = _
  after_results_simp
  funext j
  obtain ⟨q, rfl⟩ : ∃ q : Fin 128, j = ix1 q := ⟨j 0, eq_ix1 j⟩
  refine (shapeCast_apply _ _ (ix1 q) (ix2 (0 : Fin 1) q) (by
    rw [Shape.rowMajor_val_one, Shape.rowMajor_val_two]; show (0 : Nat) * 128 + q.val = q.val; omega)).trans ?_
  exact extractStridedSlice_apply ![256, 0] (W0 m ρ c (Proc.devRef .tc main_arg3)) slices_S257x128_S1x128_256_0 (ix2 (0 : Fin 1) q) (ix2 (⟨256, by omega⟩ : Fin 257) q) (fun a => match a with
    | ⟨0, _⟩ => by show 256 = 256 + 0; rfl
    | ⟨1, _⟩ => by show q.val = 0 + q.val; omega)

/-- The gate's weight column, as a vector. -/
theorem entry_v38 (k : Fin 128) : (W1 m ρ c (Proc.devRef .tc main_v38) : S128.Idx → EReal) (ix1 k)
    = ((m ((c : Thread nD τ).loc main_arg11)) : S128x1.Idx → EReal) (ix2 k (0 : Fin 1)) := by
  show StableHlo.after hostOps0 (W0 m ρ c) _ _ = _
  after_results_simp
  exact shapeCast_apply _ _ (ix1 k) (ix2 k (0 : Fin 1)) (by
    rw [Shape.rowMajor_val_one, Shape.rowMajor_val_two]; show k.val * 1 + (0 : Nat) = k.val; omega)

/-- The arguments the region reads directly are as launched. -/
theorem entry_arg4 : W1 m ρ c (Proc.devRef .tc main_arg4) = (m ((c : Thread nD τ).loc main_arg4)) := by
  show StableHlo.after hostOps0 (W0 m ρ c) _ = _
  after_results_simp
theorem entry_arg5 : W1 m ρ c (Proc.devRef .tc main_arg5) = (m ((c : Thread nD τ).loc main_arg5)) := by
  show StableHlo.after hostOps0 (W0 m ρ c) _ = _
  after_results_simp
theorem entry_arg6 : W1 m ρ c (Proc.devRef .tc main_arg6) = (m ((c : Thread nD τ).loc main_arg6)) := by
  show StableHlo.after hostOps0 (W0 m ρ c) _ = _
  after_results_simp
theorem entry_arg12 : W1 m ρ c (Proc.devRef .tc main_arg12) = (m ((c : Thread nD τ).loc main_arg12)) := by
  show StableHlo.after hostOps0 (W0 m ρ c) _ = _
  after_results_simp
theorem entry_arg0 : W1 m ρ c (Proc.devRef .tc main_arg0) = (m ((c : Thread nD τ).loc main_arg0)) := by
  show StableHlo.after hostOps0 (W0 m ρ c) _ = _
  after_results_simp
theorem entry_arg1 : W1 m ρ c (Proc.devRef .tc main_arg1) = (m ((c : Thread nD τ).loc main_arg1)) := by
  show StableHlo.after hostOps0 (W0 m ρ c) _ = _
  after_results_simp
theorem entry_arg7 : W1 m ρ c (Proc.devRef .tc main_arg7) = (m ((c : Thread nD τ).loc main_arg7)) := by
  show StableHlo.after hostOps0 (W0 m ρ c) _ = _
  after_results_simp
theorem entry_arg8 : W1 m ρ c (Proc.devRef .tc main_arg8) = (m ((c : Thread nD τ).loc main_arg8)) := by
  show StableHlo.after hostOps0 (W0 m ρ c) _ = _
  after_results_simp
theorem entry_arg9 : W1 m ρ c (Proc.devRef .tc main_arg9) = (m ((c : Thread nD τ).loc main_arg9)) := by
  show StableHlo.after hostOps0 (W0 m ρ c) _ = _
  after_results_simp
theorem entry_arg10 : W1 m ρ c (Proc.devRef .tc main_arg10) = (m ((c : Thread nD τ).loc main_arg10)) := by
  show StableHlo.after hostOps0 (W0 m ρ c) _ = _
  after_results_simp

end Cert.Bridge

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.LibColSum.lean ====
/-
  Over the library only, at the ideal instance: a sum down the columns of an [a, b] matrix. A multi_reduction <add>
  along axis 0 into [b] reads, at column c, the sum over k < a of the entries (k, c) (the accumulator being the zero
  word); the lifted index over c with k inserted on axis 0 is (k, c).
-/
import Idealize.ShloMosaic.PureOps.Ideal.Laws
import Idealize.ShloMosaic.Lib.ValueIdx
import Idealize.ShloMosaic.Lib.Pipeline.Value

noncomputable section

open scoped BigOperators

namespace Cert.LibColSum

open Idealize.ShloMosaic Idealize.ShloMosaic.ValueIdx

/-- Over position `c` of the reduced vector, with `k` on the reduced (first) axis, lies the matrix index `(k, c)`. -/
theorem lift_col {a b : ℕ} (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-- The sum down a column: at `c`, the sum over the column's entries. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (lift_col h c k))

/-- A [b] vector shape-cast to a [1, b] row reads, at (0, c), the vector's entry c. -/
theorem row_of_vec {b : ℕ} {α : Type} (v : (⟨1, ![b]⟩ : Shape).Idx → α) (h : (⟨1, ![b]⟩ : Shape).ShapeCasts ⟨2, ![1, b]⟩) (c : Fin b) :
    shapeCast ⟨2, ![1, b]⟩ v h (ix2 (0 : Fin 1) c) = v (ix1 c) :=
  (shapeCast_addUnit_apply ![b] v h (ix2 (0 : Fin 1) c)).trans
    (congrArg v (funext fun d => by match d with | ⟨0, _⟩ => rfl))

end Cert.LibColSum

end
-- ==== Proof.EdgeRows.lean ====
/-
  The edge stage's body, one row at a time: what each of its named values holds at row p of a tile of 3200 edges is the
  row function of the specification applied to row p of the tile's inputs.  The two matrix products are plain sums over
  the 128 features, the lane sums plain sums over a row, and every broadcast of a bias vector or of a per-edge column
  reads the vector's, or the column's, entry.
-/
import proofs.«181461_j11742440587289_2_alg».proof.Proof.Gen.KernelIdeal.Skeleton
import proofs.«181461_j11742440587289_2_alg».proof.Proof.Spec
import proofs.«181461_j11742440587289_2_alg».proof.Proof.LibPlainDot
import proofs.«181461_j11742440587289_2_alg».proof.Proof.LibColumn
import proofs.«181461_j11742440587289_2_alg».proof.Proof.LibRowReduce
import proofs.«181461_j11742440587289_2_alg».proof.Proof.LibColSum
import Idealize.ShloMosaic.Lib.Pipeline.Value
import Idealize.ShloMosaic.Lib.ValueLayout

noncomputable section

open scoped BigOperators

namespace Cert.KernelIdeal.EdgeRows

open Idealize.ShloMosaic Idealize.ShloMosaic.ValueIdx Cert.KernelIdeal Cert.KernelIdeal.Gen Cert.GraphLayer

/-! ## Layout lemmas -/

/-- A length-b vector made a [1, b] row and repeated along a rows reads, at (p, q), the vector's entry q. -/
theorem vec_rows {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) := by
  refine (broadcastTo_apply _ h2 (ix2 p q) (ix2 (0 : Fin 1) q) fun ax => ?_).trans (Cert.LibColSum.row_of_vec v h1 q)
  match ax with
  | ⟨0, _⟩ => rfl
  | ⟨1, _⟩ =>
    show q.val = if b = 1 then 0 else q.val
    split
    · have := q.isLt; omega
    · rfl

/-- A lane sum from the zero word reads, at row r, the sum of the row's entries. -/
theorem rowSum0 {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (r : Fin a) :
    multiReduction .add [1] ⟨1, ![a]⟩ src 0x00000000#32 h hφ hacc (ix1 r) = ∑ k : Fin b, src (ix2 r k) :=
  Cert.LibRowReduce.rowSum_apply src _ h hφ hacc r

theorem dot_plain : dot_S3200x128_S128x128_S3200x128_1_0_0_1_n_n = DotDims.plain 3200 128 128 := rfl

/-! ## The squared length -/

/-- The squared length of row p of the position differences. -/
theorem sq_row (v4 : Vec Ideal S3200x3 .f32) (p : Fin 3200) (u : Fin 1) :
    k0_pay5 (F := Ideal) v4 (ix2 p u) = sqLen fun j => v4 (ix2 p j) := by
  unfold k0_pay5 k0_pay4
  dsimp only
  rw [Cert.LibColumn.shapeCast_a_a1_apply, rowSum0]
  simp only [shapeCast_self]
  rfl

/-! ## The hidden row -/

/-- The tile's hidden rows before silu: the two products, the squared length against the last weight row, the bias. -/
def hidPre (v0 v2 : Vec Ideal S3200x128 .bf16) (v4 : Vec Ideal S3200x3 .f32) (v9 v12 : Vec Ideal S128x128 .f32)
    (v18 v25 : Vec Ideal S128 .f32) : FVec Ideal S3200x128 .f32 :=
  have v1 : FVec Ideal S3200x128 .bf16 := shapeCast S3200x128 v0 shapeCasts_S3200x128_S3200x128
  have v3 : FVec Ideal S3200x128 .bf16 := shapeCast S3200x128 v2 shapeCasts_S3200x128_S3200x128
  have v10 : FVec Ideal S128x128 .f32 := shapeCast S128x128 v9 shapeCasts_S128x128_S128x128
  have v11 : FVec Ideal S128x128 .bf16 := truncf .bf16 v10 bitsLt_bf16_f32
  have v13 : FVec Ideal S128x128 .f32 := shapeCast S128x128 v12 shapeCasts_S128x128_S128x128
  have v14 : FVec Ideal S128x128 .bf16 := truncf .bf16 v13 bitsLt_bf16_f32
  have cst_9 : FVec Ideal S3200x128 .f32 := constant S3200x128 .f32 0x00000000#32
  have v15 : FVec Ideal S3200x128 .f32 := matmul dot_S3200x128_S128x128_S3200x128_1_0_0_1_n_n none v1 v11 cst_9
  have cst_10 : FVec Ideal S3200x128 .f32 := constant S3200x128 .f32 0x00000000#32
  have v16 : FVec Ideal S3200x128 .f32 := matmul dot_S3200x128_S128x128_S3200x128_1_0_0_1_n_n none v3 v14 cst_10
  have v17 : FVec Ideal S3200x128 .f32 := addf v15 v16
  have v19 : FVec Ideal S128 .f32 := shapeCast S128 v18 shapeCasts_S128_S128
  have v20 : FVec Ideal S1x128 .f32 := shapeCast S1x128 v19 shapeCasts_S128_S1x128
  have v21 : FVec Ideal S3200x128 .f32 := broadcastTo S3200x128 (k0_pay5 v4) broadcasts_S3200x1_S3200x128
  have v22 : FVec Ideal S3200x128 .f32 := broadcastTo S3200x128 v20 broadcasts_S1x128_S3200x128
  have v23 : FVec Ideal S3200x128 .f32 := mulf v21 v22
  have v24 : FVec Ideal S3200x128 .f32 := addf v17 v23
  have v26 : FVec Ideal S1x128 .f32 := shapeCast S1x128 v25 shapeCasts_S128_S1x128
  have v27 : FVec Ideal S3200x128 .f32 := broadcastTo S3200x128 v26 broadcasts_S1x128_S3200x128
  have v28 : FVec Ideal S3200x128 .f32 := addf v24 v27
  v28

theorem hidPre_row (v0 v2 : Vec Ideal S3200x128 .bf16) (v4 : Vec Ideal S3200x3 .f32) (v9 v12 : Vec Ideal S128x128 .f32)
    (v18 v25 : Vec Ideal S128 .f32) (p : Fin 3200) (q : Fin 128) :
    hidPre v0 v2 v4 v9 v12 v18 v25 (ix2 p q)
      = hiddenPre (fun k => v0 (ix2 p k)) (fun k => v2 (ix2 p k)) (sqLen fun j => v4 (ix2 p j)) v9 v12 v18 v25 q := by
  unfold hidPre hiddenPre
  dsimp only [addf_apply, mulf_apply]
  rw [dot_plain, Cert.LibPlainDot.matmul_plain, Cert.LibPlainDot.matmul_plain, Cert.LibColumn.broadcastTo_a1_ab_apply,
    vec_rows, vec_rows, sq_row]
  simp only [shapeCast_self]
  rfl

/-! ## The message row -/

theorem pay6_eq (v0 v2 : Vec Ideal S3200x128 .bf16) (v4 : Vec Ideal S3200x3 .f32) (v9 v12 : Vec Ideal S128x128 .f32)
    (v18 v25 : Vec Ideal S128 .f32) (v32 : Vec Ideal S128x128 .f32) (v35 : Vec Ideal S128 .f32) :
    k0_pay6 (F := Ideal) v0 v2 v4 v9 v12 v18 v25 v32 v35
      = addf (matmul dot_S3200x128_S128x128_S3200x128_1_0_0_1_n_n none
            (truncf .bf16 (mulf (hidPre v0 v2 v4 v9 v12 v18 v25) (logistic (hidPre v0 v2 v4 v9 v12 v18 v25))) bitsLt_bf16_f32)
            (truncf .bf16 v32 bitsLt_bf16_f32) (constant S3200x128 .f32 0x00000000#32))
          (broadcastTo S3200x128 (shapeCast S1x128 v35 shapeCasts_S128_S1x128) broadcasts_S1x128_S3200x128) := rfl

theorem msgPre_row (v0 v2 : Vec Ideal S3200x128 .bf16) (v4 : Vec Ideal S3200x3 .f32) (v9 v12 : Vec Ideal S128x128 .f32)
    (v18 v25 : Vec Ideal S128 .f32) (v32 : Vec Ideal S128x128 .f32) (v35 : Vec Ideal S128 .f32) (p : Fin 3200) (q : Fin 128) :
    k0_pay6 (F := Ideal) v0 v2 v4 v9 v12 v18 v25 v32 v35 (ix2 p q)
      = messagePre (fun k => v0 (ix2 p k)) (fun k => v2 (ix2 p k)) (sqLen fun j => v4 (ix2 p j)) v9 v12 v18 v25 v32 v35 q := by
  rw [pay6_eq]
  unfold messagePre
  dsimp only [addf_apply]
  rw [dot_plain, Cert.LibPlainDot.matmul_plain, vec_rows]
  refine congrArg (· + v35 (ix1 q)) (Finset.sum_congr rfl fun k _ => ?_)
  show hidPre v0 v2 v4 v9 v12 v18 v25 (ix2 p k) * Ideal.logistic (hidPre v0 v2 v4 v9 v12 v18 v25 (ix2 p k)) * v32 (ix2 k q) = _
  rw [hidPre_row]
  rfl

/-- The message entry the body stores at (p, q). -/
theorem msg_row (v0 v2 : Vec Ideal S3200x128 .bf16) (v4 : Vec Ideal S3200x3 .f32) (v9 v12 : Vec Ideal S128x128 .f32)
    (v18 v25 : Vec Ideal S128 .f32) (v32 : Vec Ideal S128x128 .f32) (v35 : Vec Ideal S128 .f32) (p : Fin 3200) (q : Fin 128) :
    k0_pay1 (F := Ideal) (k0_pay6 v0 v2 v4 v9 v12 v18 v25 v32 v35) (k0_pay7 v0 v2 v4 v9 v12 v18 v25 v32 v35) (ix2 p q)
      = message (fun k => v0 (ix2 p k)) (fun k => v2 (ix2 p k)) (sqLen fun j => v4 (ix2 p j)) v9 v12 v18 v25 v32 v35 q := by
  show k0_pay6 (F := Ideal) v0 v2 v4 v9 v12 v18 v25 v32 v35 (ix2 p q)
      * Ideal.logistic (k0_pay6 (F := Ideal) v0 v2 v4 v9 v12 v18 v25 v32 v35 (ix2 p q)) = _
  rw [msgPre_row]
  rfl

/-! ## The gate and the shift -/

/-- The tile's gate column before silu, from the tile's message rows M: each row against the vector v43, plus v50. -/
def gatePre (M : FVec Ideal S3200x128 .f32) (v43 : Vec Ideal S128 .f32) (v50 : Vec Ideal S1 .f32) : FVec Ideal S3200x1 .f32 :=
  have v44 : FVec Ideal S128 .f32 := shapeCast S128 v43 shapeCasts_S128_S128
  have v45 : FVec Ideal S1x128 .f32 := shapeCast S1x128 v44 shapeCasts_S128_S1x128
  have v46 : FVec Ideal S3200x128 .f32 := broadcastTo S3200x128 v45 broadcasts_S1x128_S3200x128
  have v47 : FVec Ideal S3200x128 .f32 := mulf M v46
  have v48 : FVec Ideal S3200 .f32 := multiReduction .add [1] S3200 v47 0x00000000#32 reduces_S3200x128_S3200 (.inl rfl) rfl
  have v49 : FVec Ideal S3200x1 .f32 := shapeCast S3200x1 v48 shapeCasts_S3200_S3200x1
  have v51 : FVec Ideal S1x1 .f32 := shapeCast S1x1 v50 shapeCasts_S1_S1x1
  have v52 : FVec Ideal S3200x1 .f32 := broadcastTo S3200x1 v51 broadcasts_S1x1_S3200x1
  have v53 : FVec Ideal S3200x1 .f32 := addf v49 v52
  v53

theorem gatePre_row (M : FVec Ideal S3200x128 .f32) (v43 : Vec Ideal S128 .f32) (v50 : Vec Ideal S1 .f32) (p : Fin 3200) (u : Fin 1) :
    gatePre M v43 v50 (ix2 p u) = (∑ k : Fin 128, M (ix2 p k) * v43 (ix1 k)) + v50 (ix1 (0 : Fin 1)) := by
  have hu : u = 0 := Subsingleton.elim _ _
  subst hu
  unfold gatePre
  dsimp only [addf_apply]
  rw [Cert.LibColumn.shapeCast_a_a1_apply, rowSum0, vec_rows]
  refine congrArg (· + v50 (ix1 (0 : Fin 1))) (Finset.sum_congr rfl fun k _ => ?_)
  show M (ix2 p k) * _ = _
  rw [vec_rows]
  simp only [shapeCast_self]

theorem pay3_eq (v5 : FVec Ideal S3200x3 .f32) (v8 : FVec Ideal S3200x1 .f32) (v38 v39 : FVec Ideal S3200x128 .f32)
    (v43 : Vec Ideal S128 .f32) (v50 : Vec Ideal S1 .f32) :
    k0_pay3 (F := Ideal) v5 v8 v38 v39 v43 v50
      = mulf (divf v5 (broadcastTo S3200x3 (addf (sqrt v8) (broadcast S3200x1 (Scalar.ofBits (F := Ideal) .f32 0x322BCC77#32))) broadcasts_S3200x1_S3200x3))
          (broadcastTo S3200x3 (mulf (gatePre (k0_pay1 v38 v39) v43 v50) (logistic (gatePre (k0_pay1 v38 v39) v43 v50))) broadcasts_S3200x1_S3200x3) := rfl

/-- The shift entry the body stores at (p, j). -/
theorem shift_row (v0 v2 : Vec Ideal S3200x128 .bf16) (v4 : Vec Ideal S3200x3 .f32) (v9 v12 : Vec Ideal S128x128 .f32)
    (v18 v25 : Vec Ideal S128 .f32) (v32 : Vec Ideal S128x128 .f32) (v35 : Vec Ideal S128 .f32) (v43 : Vec Ideal S128 .f32)
    (v50 : Vec Ideal S1 .f32) (p : Fin 3200) (j : Fin 3) :
    k0_pay3 (F := Ideal) (k0_pay4 v4) (k0_pay5 v4) (k0_pay6 v0 v2 v4 v9 v12 v18 v25 v32 v35) (k0_pay7 v0 v2 v4 v9 v12 v18 v25 v32 v35)
        v43 v50 (ix2 p j)
      = shift (fun j' => v4 (ix2 p j'))
          (gate (fun k => message (fun k' => v0 (ix2 p k')) (fun k' => v2 (ix2 p k')) (sqLen fun j' => v4 (ix2 p j')) v9 v12 v18 v25 v32 v35 k)
            (fun k => v43 (ix1 k)) (v50 (ix1 (0 : Fin 1)))) j := by
  rw [pay3_eq]
  unfold shift gate
  dsimp only [mulf_apply, divf_apply]
  rw [Cert.LibColumn.broadcastTo_a1_ab_apply, Cert.LibColumn.broadcastTo_a1_ab_apply]
  dsimp only [addf_apply, mulf_apply, broadcast_apply]
  have hg : gatePre (k0_pay1 (F := Ideal) (k0_pay6 v0 v2 v4 v9 v12 v18 v25 v32 v35) (k0_pay7 v0 v2 v4 v9 v12 v18 v25 v32 v35)) v43 v50 (ix2 p (0 : Fin 1))
      = (∑ k : Fin 128, message (fun k' => v0 (ix2 p k')) (fun k' => v2 (ix2 p k')) (sqLen fun j' => v4 (ix2 p j')) v9 v12 v18 v25 v32 v35 k
          * v43 (ix1 k)) + v50 (ix1 (0 : Fin 1)) := by
    rw [gatePre_row]
    refine congrArg (· + v50 (ix1 (0 : Fin 1))) (Finset.sum_congr rfl fun k _ => ?_)
    rw [msg_row]
  have hl : (logistic (gatePre (k0_pay1 (F := Ideal) (k0_pay6 v0 v2 v4 v9 v12 v18 v25 v32 v35) (k0_pay7 v0 v2 v4 v9 v12 v18 v25 v32 v35)) v43 v50)
        : FVec Ideal S3200x1 .f32) (ix2 p (0 : Fin 1))
      = Ideal.logistic (gatePre (k0_pay1 (F := Ideal) (k0_pay6 v0 v2 v4 v9 v12 v18 v25 v32 v35) (k0_pay7 v0 v2 v4 v9 v12 v18 v25 v32 v35)) v43 v50
          (ix2 p (0 : Fin 1))) := rfl
  have hs : (sqrt (k0_pay5 (F := Ideal) v4) : FVec Ideal S3200x1 .f32) (ix2 p (0 : Fin 1)) = Ideal.sqrt (sqLen fun j' => v4 (ix2 p j')) := by
    show Ideal.sqrt (k0_pay5 (F := Ideal) v4 (ix2 p (0 : Fin 1))) = _
    rw [sq_row]
  have h4 : k0_pay4 (F := Ideal) v4 (ix2 p j) = v4 (ix2 p j) := by
    unfold k0_pay4
    simp only [shapeCast_self]
  rw [hl, hg, hs, h4]
  rfl

end Cert.KernelIdeal.EdgeRows

end
-- ==== Proof.EdgeArray.lean ====
/-
  The edge stage's two output arrays after its region, each as one function of the region's input arrays.

  The region walks 250 tiles of 3200 edges.  At tile t every row-tiled window (the two gathered feature arrays, the position
  differences, and the two outputs) holds rows 3200·t … 3200·t + 3199 of its array, and every weight window holds its whole
  array.  The body's stored values at row p of the tile are the specification's row functions of row p of the tile's inputs
  (EdgeRows.lean), that is of row 3200·t + p of the arrays; the 250 tiles cover every row, so each output array ends holding
  the row function of its own row, everywhere.
-/
import proofs.«181461_j11742440587289_2_alg».proof.Proof.KernelIdealFrame
import proofs.«181461_j11742440587289_2_alg».proof.Proof.EdgeRows
import proofs.«181461_j11742440587289_2_alg».proof.Proof.Spec
import Idealize.ShloMosaic.Lib.Pipeline.Value
import Idealize.ShloMosaic.Lib.Tactic

set_option maxRecDepth 16384

noncomputable section

open scoped BigOperators

namespace Cert.KernelIdeal.EdgeArray

open Idealize.ShloMosaic Idealize.ShloMosaic.TcCoe Idealize.SL.Sem Idealize.ShloMosaic.ValueIdx
open Cert.KernelIdeal Cert.KernelIdeal.Gen Cert.GraphLayer Cert.KernelIdeal.EdgeRows
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: a row-tiled window's block index is the tile number, a weight window's is 0. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_11.index t (0 : Fin 2) = t.val
    ∧ win0_11.index t (1 : Fin 2) = 0
    ∧ win0_12.index t (0 : Fin 2) = t.val
    ∧ win0_12.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_7.index t (0 : Fin 2) = 0
    ∧ win0_7.index t (1 : Fin 2) = 0
    ∧ win0_5.index t (0 : Fin 1) = 0
    ∧ win0_6.index t (0 : Fin 1) = 0
    ∧ win0_8.index t (0 : Fin 1) = 0
    ∧ win0_9.index t (0 : Fin 1) = 0
    ∧ win0_10.index t (0 : Fin 1) = 0 :=
  (by decide +kernel : ∀ t : Fin grid0.N, _)

/-! ## The windows' blocks, read off the arrays -/

/-- Window 0's block at tile t is rows 3200·t … of its array. -/
theorem blk0 (c : Dev nD) (t : Fin cfg0.N) (p : Fin 3200) (k : Fin 128) (r : Fin 800000) (hr : r.val = 3200 * t.val + p.val) :
    (iblk0 V c 0 t : Vec Ideal S3200x128 .bf16) (ix2 p k) = (V c main_v11 : S800000x128.Idx → EReal) (ix2 r k) := by
  have hi := idx_facts t
  unfold iblk0
  rw [View.read_apply]
  show V c main_v11 _ = V c main_v11 _
  congr 1
  funext a
  apply Fin.ext
  match a with
  | ⟨0, _⟩ => show win0_0.index t (0 : Fin 2) * 3200 + 1 * p.val = r.val; rw [hi.1, hr]; omega
  | ⟨1, _⟩ => show win0_0.index t (1 : Fin 2) * 128 + 1 * k.val = k.val; rw [hi.2.1]; omega

/-- Window 1's block at tile t is rows 3200·t … of its array. -/
theorem blk1 (c : Dev nD) (t : Fin cfg0.N) (p : Fin 3200) (k : Fin 128) (r : Fin 800000) (hr : r.val = 3200 * t.val + p.val) :
    (iblk0 V c 1 t : Vec Ideal S3200x128 .bf16) (ix2 p k) = (V c main_v18 : S800000x128.Idx → EReal) (ix2 r k) := by
  have hi := idx_facts t
  unfold iblk0
  rw [View.read_apply]
  show V c main_v18 _ = V c main_v18 _
  congr 1
  funext a
  apply Fin.ext
  match a with
  | ⟨0, _⟩ => show win0_1.index t (0 : Fin 2) * 3200 + 1 * p.val = r.val; rw [hi.2.2.1, hr]; omega
  | ⟨1, _⟩ => show win0_1.index t (1 : Fin 2) * 128 + 1 * k.val = k.val; rw [hi.2.2.2.1]; omega

/-- Window 2's block at tile t is rows 3200·t … of its array. -/
theorem blk2 (c : Dev nD) (t : Fin cfg0.N) (p : Fin 3200) (k : Fin 3) (r : Fin 800000) (hr : r.val = 3200 * t.val + p.val) :
    (iblk0 V c 2 t : Vec Ideal S3200x3 .f32) (ix2 p k) = (V c main_v33 : S800000x3.Idx → EReal) (ix2 r k) := by
  have hi := idx_facts t
  unfold iblk0
  rw [View.read_apply]
  show V c main_v33 _ = V c main_v33 _
  congr 1
  funext a
  apply Fin.ext
  match a with
  | ⟨0, _⟩ => show win0_2.index t (0 : Fin 2) * 3200 + 1 * p.val = r.val; rw [hi.2.2.2.2.1, hr]; omega
  | ⟨1, _⟩ => show win0_2.index t (1 : Fin 2) * 3 + 1 * k.val = k.val; rw [hi.2.2.2.2.2.1]; omega

/-- Window 3's block is its whole array at every tile. -/
theorem blk3 (c : Dev nD) (t : Fin cfg0.N) : (iblk0 V c 3 t : Vec Ideal S128x128 .f32) = (V c main_v34 : S128x128.Idx → EReal) := by
  have hi := idx_facts t
  funext x
  unfold iblk0
  rw [View.read_apply]
  show V c main_v34 _ = V c main_v34 _
  congr 1
  funext a
  apply Fin.ext
  match a with
  | ⟨0, _⟩ => show win0_3.index t (0 : Fin 2) * 128 + 1 * (x 0).val = (x 0).val; rw [hi.2.2.2.2.2.2.2.2.2.2.1]; omega
  | ⟨1, _⟩ => show win0_3.index t (1 : Fin 2) * 128 + 1 * (x 1).val = (x 1).val; rw [hi.2.2.2.2.2.2.2.2.2.2.2.1]; omega

/-- Window 4's block is its whole array at every tile. -/
theorem blk4 (c : Dev nD) (t : Fin cfg0.N) : (iblk0 V c 4 t : Vec Ideal S128x128 .f32) = (V c main_v35 : S128x128.Idx → EReal) := by
  have hi := idx_facts t
  funext x
  unfold iblk0
  rw [View.read_apply]
  show V c main_v35 _ = V c main_v35 _
  congr 1
  funext a
  apply Fin.ext
  match a with
  | ⟨0, _⟩ => show win0_4.index t (0 : Fin 2) * 128 + 1 * (x 0).val = (x 0).val; rw [hi.2.2.2.2.2.2.2.2.2.2.2.2.1]; omega
  | ⟨1, _⟩ => show win0_4.index t (1 : Fin 2) * 128 + 1 * (x 1).val = (x 1).val; rw [hi.2.2.2.2.2.2.2.2.2.2.2.2.2.1]; omega

/-- Window 7's block is its whole array at every tile. -/
theorem blk7 (c : Dev nD) (t : Fin cfg0.N) : (iblk0 V c 7 t : Vec Ideal S128x128 .f32) = (V c main_arg5 : S128x128.Idx → EReal) := by
  have hi := idx_facts t
  funext x
  unfold iblk0
  rw [View.read_apply]
  show V c main_arg5 _ = V c main_arg5 _
  congr 1
  funext a
  apply Fin.ext
  match a with
  | ⟨0, _⟩ => show win0_7.index t (0 : Fin 2) * 128 + 1 * (x 0).val = (x 0).val; rw [hi.2.2.2.2.2.2.2.2.2.2.2.2.2.2.1]; omega
  | ⟨1, _⟩ => show win0_7.index t (1 : Fin 2) * 128 + 1 * (x 1).val = (x 1).val; rw [hi.2.2.2.2.2.2.2.2.2.2.2.2.2.2.2.1]; omega

/-- Window 5's block is its whole array at every tile. -/
theorem blk5 (c : Dev nD) (t : Fin cfg0.N) : (iblk0 V c 5 t : Vec Ideal S128 .f32) = (V c main_v37 : S128.Idx → EReal) := by
  have hi := idx_facts t
  funext x
  unfold iblk0
  rw [View.read_apply]
  show V c main_v37 _ = V c main_v37 _
  congr 1
  funext a
  apply Fin.ext
  match a with
  | ⟨0, _⟩ => show win0_5.index t (0 : Fin 1) * 128 + 1 * (x 0).val = (x 0).val; rw [hi.2.2.2.2.2.2.2.2.2.2.2.2.2.2.2.2.1]; omega

/-- Window 6's block is its whole array at every tile. -/
theorem blk6 (c : Dev nD) (t : Fin cfg0.N) : (iblk0 V c 6 t : Vec Ideal S128 .f32) = (V c main_arg4 : S128.Idx → EReal) := by
  have hi := idx_facts t
  funext x
  unfold iblk0
  rw [View.read_apply]
  show V c main_arg4 _ = V c main_arg4 _
  congr 1
  funext a
  apply Fin.ext
  match a with
  | ⟨0, _⟩ => show win0_6.index t (0 : Fin 1) * 128 + 1 * (x 0).val = (x 0).val; rw [hi.2.2.2.2.2.2.2.2.2.2.2.2.2.2.2.2.2.1]; omega

/-- Window 8's block is its whole array at every tile. -/
theorem blk8 (c : Dev nD) (t : Fin cfg0.N) : (iblk0 V c 8 t : Vec Ideal S128 .f32) = (V c main_arg6 : S128.Idx → EReal) := by
  have hi := idx_facts t
  funext x
  unfold iblk0
  rw [View.read_apply]
  show V c main_arg6 _ = V c main_arg6 _
  congr 1
  funext a
  apply Fin.ext
  match a with
  | ⟨0, _⟩ => show win0_8.index t (0 : Fin 1) * 128 + 1 * (x 0).val = (x 0).val; rw [hi.2.2.2.2.2.2.2.2.2.2.2.2.2.2.2.2.2.2.1]; omega

/-- Window 9's block is its whole array at every tile. -/
theorem blk9 (c : Dev nD) (t : Fin cfg0.N) : (iblk0 V c 9 t : Vec Ideal S128 .f32) = (V c main_v38 : S128.Idx → EReal) := by
  have hi := idx_facts t
  funext x
  unfold iblk0
  rw [View.read_apply]
  show V c main_v38 _ = V c main_v38 _
  congr 1
  funext a
  apply Fin.ext
  match a with
  | ⟨0, _⟩ => show win0_9.index t (0 : Fin 1) * 128 + 1 * (x 0).val = (x 0).val; rw [hi.2.2.2.2.2.2.2.2.2.2.2.2.2.2.2.2.2.2.2.1]; omega

/-- Window 10's block is its whole array at every tile. -/
theorem blk10 (c : Dev nD) (t : Fin cfg0.N) : (iblk0 V c 10 t : Vec Ideal S1 .f32) = (V c main_arg12 : S1.Idx → EReal) := by
  have hi := idx_facts t
  funext x
  unfold iblk0
  rw [View.read_apply]
  show V c main_arg12 _ = V c main_arg12 _
  congr 1
  funext a
  apply Fin.ext
  match a with
  | ⟨0, _⟩ => show win0_10.index t (0 : Fin 1) * 1 + 1 * (x 0).val = (x 0).val; rw [hi.2.2.2.2.2.2.2.2.2.2.2.2.2.2.2.2.2.2.2.2]; omega

/-! ## The two output arrays -/

/-- The message array: at (e, c) the message row of edge e, entry c. -/
def messages (c : Dev nD) : S800000x128.Idx → EReal := fun i =>
  message (fun k => (V c main_v11 : S800000x128.Idx → EReal) (ix2 (i 0) k)) (fun k => (V c main_v18 : S800000x128.Idx → EReal) (ix2 (i 0) k))
    (sqLen fun j => (V c main_v33 : S800000x3.Idx → EReal) (ix2 (i 0) j))
    (V c main_v34) (V c main_v35) (V c main_v37) (V c main_arg4) (V c main_arg5) (V c main_arg6) (i 1)

/-- The shift array: at (e, j) the position shift of edge e along coordinate j. -/
def shifts (c : Dev nD) : S800000x3.Idx → EReal := fun i =>
  shift (fun j => (V c main_v33 : S800000x3.Idx → EReal) (ix2 (i 0) j))
    (gate (fun k => messages V c (ix2 (i 0) k)) (fun k => (V c main_v38 : S128.Idx → EReal) (ix1 k))
      ((V c main_arg12 : S1.Idx → EReal) (ix1 (0 : Fin 1)))) (i 1)

/-- Row p of tile t is row 3200·t + p of the arrays. -/
theorem row_lt (t : Fin cfg0.N) (p : Fin 3200) : 3200 * t.val + p.val < 800000 := by
  have h := t.isLt
  have hN : cfg0.N = 250 := N_0
  have := p.isLt
  omega

/-- What tile t writes back of the messages is block t of the message array. -/
theorem flushed_messages (c : Dev nD) (t : Fin cfg0.N) :
    (dat0 V c).flushed 11 t = ((cfg0.win 11).blk t).view.read (Elt Ideal) (messages V c) := by
  have hi := idx_facts t
  show (cfg0.win 11).cut (grid0.coords t) ((dat0 V c).after 11 t) = _
  rw [after0_11]
  unfold out0_11
  rw [View.canon_unit_zero hz2]
  simp only [View.ld_unit_zero (S := S3200x128) hz2, View.ld_unit_zero (S := S3200x3) hz2, View.ld_unit_zero (S := S128x128) hz2,
    View.ld_unit_zero (S := S128) hz1]
  funext j
  obtain ⟨p, q, rfl⟩ : ∃ (p : Fin 3200) (q : Fin 128), j = ix2 p q := ⟨j 0, j 1, eq_ix2 j⟩
  rw [View.read_apply]
  have he : ((cfg0.win 11).blk t).view.emb (ix2 p q) = (ix2 (⟨3200 * t.val + p.val, row_lt t p⟩ : Fin 800000) q : S800000x128.Idx) := by
    funext a
    apply Fin.ext
    match a with
    | ⟨0, _⟩ => show win0_11.index t (0 : Fin 2) * 3200 + 1 * p.val = 3200 * t.val + p.val; rw [hi.2.2.2.2.2.2.1]; omega
    | ⟨1, _⟩ => show win0_11.index t (1 : Fin 2) * 128 + 1 * q.val = q.val; rw [hi.2.2.2.2.2.2.2.1]; omega
  rw [he]
  unfold k0_pay2
  refine (msg_row (iblk0 V c 0 t) (iblk0 V c 1 t) (iblk0 V c 2 t) (iblk0 V c 3 t) (iblk0 V c 4 t) (iblk0 V c 5 t) (iblk0 V c 6 t)
    (iblk0 V c 7 t) (iblk0 V c 8 t) p q).trans ?_
  unfold messages
  rw [blk3, blk4, blk5, blk6, blk7, blk8]
  have e0 : (fun k => (iblk0 V c 0 t : Vec Ideal S3200x128 .bf16) (ix2 p k))
      = fun k => (V c main_v11 : S800000x128.Idx → EReal) (ix2 (⟨3200 * t.val + p.val, row_lt t p⟩ : Fin 800000) k) :=
    funext fun k => blk0 V c t p k _ rfl
  have e1 : (fun k => (iblk0 V c 1 t : Vec Ideal S3200x128 .bf16) (ix2 p k))
      = fun k => (V c main_v18 : S800000x128.Idx → EReal) (ix2 (⟨3200 * t.val + p.val, row_lt t p⟩ : Fin 800000) k) :=
    funext fun k => blk1 V c t p k _ rfl
  have e2 : (fun j => (iblk0 V c 2 t : Vec Ideal S3200x3 .f32) (ix2 p j))
      = fun j => (V c main_v33 : S800000x3.Idx → EReal) (ix2 (⟨3200 * t.val + p.val, row_lt t p⟩ : Fin 800000) j) :=
    funext fun j => blk2 V c t p j _ rfl
  rw [e0, e1, e2]
  rfl

/-- What tile t writes back of the shifts is block t of the shift array. -/
theorem flushed_shifts (c : Dev nD) (t : Fin cfg0.N) :
    (dat0 V c).flushed 12 t = ((cfg0.win 12).blk t).view.read (Elt Ideal) (shifts V c) := by
  have hi := idx_facts t
  show (cfg0.win 12).cut (grid0.coords t) ((dat0 V c).after 12 t) = _
  rw [after0_12]
  unfold out0_12
  rw [View.canon_unit_zero hz2]
  simp only [View.ld_unit_zero (S := S3200x128) hz2, View.ld_unit_zero (S := S3200x3) hz2, View.ld_unit_zero (S := S128x128) hz2,
    View.ld_unit_zero (S := S128) hz1, View.ld_unit_zero (S := S1) hz1]
  funext j
  obtain ⟨p, q, rfl⟩ : ∃ (p : Fin 3200) (q : Fin 3), j = ix2 p q := ⟨j 0, j 1, eq_ix2 j⟩
  rw [View.read_apply]
  have he : ((cfg0.win 12).blk t).view.emb (ix2 p q) = (ix2 (⟨3200 * t.val + p.val, row_lt t p⟩ : Fin 800000) q : S800000x3.Idx) := by
    funext a
    apply Fin.ext
    match a with
    | ⟨0, _⟩ => show win0_12.index t (0 : Fin 2) * 3200 + 1 * p.val = 3200 * t.val + p.val; rw [hi.2.2.2.2.2.2.2.2.1]; omega
    | ⟨1, _⟩ => show win0_12.index t (1 : Fin 2) * 3 + 1 * q.val = q.val; rw [hi.2.2.2.2.2.2.2.2.2.1]; omega
  rw [he]
  refine (shift_row (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) p q).trans ?_
  unfold shifts messages
  rw [blk3, blk4, blk5, blk6, blk7, blk8, blk9, blk10]
  have e0 : (fun k => (iblk0 V c 0 t : Vec Ideal S3200x128 .bf16) (ix2 p k))
      = fun k => (V c main_v11 : S800000x128.Idx → EReal) (ix2 (⟨3200 * t.val + p.val, row_lt t p⟩ : Fin 800000) k) :=
    funext fun k => blk0 V c t p k _ rfl
  have e1 : (fun k => (iblk0 V c 1 t : Vec Ideal S3200x128 .bf16) (ix2 p k))
      = fun k => (V c main_v18 : S800000x128.Idx → EReal) (ix2 (⟨3200 * t.val + p.val, row_lt t p⟩ : Fin 800000) k) :=
    funext fun k => blk1 V c t p k _ rfl
  have e2 : (fun j => (iblk0 V c 2 t : Vec Ideal S3200x3 .f32) (ix2 p j))
      = fun j => (V c main_v33 : S800000x3.Idx → EReal) (ix2 (⟨3200 * t.val + p.val, row_lt t p⟩ : Fin 800000) j) :=
    funext fun j => blk2 V c t p j _ rfl
  rw [e0, e1, e2]
  rfl

/-! ## The tiles cover the arrays -/

theorem mem_blk11 (t : Fin cfg0.N) (i : S800000x128.Idx) :
    i ∈ ((cfg0.win 11).blk t).view.set ↔ ∀ a : Fin 2, win0_11.index t a * S3200x128.size a ≤ (i a).val ∧ (i a).val < win0_11.index t a * S3200x128.size a + S3200x128.size a := by
  show i ∈ ((View.whole main_v39_0).slice (win0_11.rect t)).set ↔ _
  rw [View.set_slice_whole, Rect.mem_set_unit]
  exact Iff.rfl

theorem mem_blk12 (t : Fin cfg0.N) (i : S800000x3.Idx) :
    i ∈ ((cfg0.win 12).blk t).view.set ↔ ∀ a : Fin 2, win0_12.index t a * S3200x3.size a ≤ (i a).val ∧ (i a).val < win0_12.index t a * S3200x3.size a + S3200x3.size a := by
  show i ∈ ((View.whole main_v39_1).slice (win0_12.rect t)).set ↔ _
  rw [View.set_slice_whole, Rect.mem_set_unit]
  exact Iff.rfl

/-- The tile that holds row r. -/
def tileOf (r : Nat) (hr : r < 800000) : Fin cfg0.N := ⟨r / 3200, by rw [show cfg0.N = 250 from N_0]; omega⟩

theorem cover11 (i : S800000x128.Idx) : ∃ t : Fin cfg0.N, (cfg0.win 11).flush t = true ∧ i ∈ ((cfg0.win 11).blk t).view.set := by
  have h0 : (i 0).val < 800000 := (i 0).isLt
  have h1 : (i 1).val < 128 := (i 1).isLt
  refine ⟨tileOf (i 0).val h0, flush0_11 _, ?_⟩
  have hi := idx_facts (tileOf (i 0).val h0)
  rw [mem_blk11]
  intro a
  match a with
  | ⟨0, _⟩ =>
    show win0_11.index (tileOf (i 0).val h0) (0 : Fin 2) * 3200 ≤ (i 0).val ∧ (i 0).val < win0_11.index (tileOf (i 0).val h0) (0 : Fin 2) * 3200 + 3200
    rw [hi.2.2.2.2.2.2.1]
    show (i 0).val / 3200 * 3200 ≤ (i 0).val ∧ (i 0).val < (i 0).val / 3200 * 3200 + 3200
    omega
  | ⟨1, _⟩ =>
    show win0_11.index (tileOf (i 0).val h0) (1 : Fin 2) * 128 ≤ (i 1).val ∧ (i 1).val < win0_11.index (tileOf (i 0).val h0) (1 : Fin 2) * 128 + 128
    rw [hi.2.2.2.2.2.2.2.1]
    omega

theorem cover12 (i : S800000x3.Idx) : ∃ t : Fin cfg0.N, (cfg0.win 12).flush t = true ∧ i ∈ ((cfg0.win 12).blk t).view.set := by
  have h0 : (i 0).val < 800000 := (i 0).isLt
  have h1 : (i 1).val < 3 := (i 1).isLt
  refine ⟨tileOf (i 0).val h0, flush0_12 _, ?_⟩
  have hi := idx_facts (tileOf (i 0).val h0)
  rw [mem_blk12]
  intro a
  match a with
  | ⟨0, _⟩ =>
    show win0_12.index (tileOf (i 0).val h0) (0 : Fin 2) * 3200 ≤ (i 0).val ∧ (i 0).val < win0_12.index (tileOf (i 0).val h0) (0 : Fin 2) * 3200 + 3200
    rw [hi.2.2.2.2.2.2.2.2.1]
    show (i 0).val / 3200 * 3200 ≤ (i 0).val ∧ (i 0).val < (i 0).val / 3200 * 3200 + 3200
    omega
  | ⟨1, _⟩ =>
    show win0_12.index (tileOf (i 0).val h0) (1 : Fin 2) * 3 ≤ (i 1).val ∧ (i 1).val < win0_12.index (tileOf (i 0).val h0) (1 : Fin 2) * 3 + 3
    rw [hi.2.2.2.2.2.2.2.2.2.1]
    omega

/-! ## The arrays after the region -/

/-- After the region the message array holds the message rows. -/
theorem message_array (c : Dev nD) : (dat0 V c).arrAt 11 cfg0.N = messages V c :=
  (dat0 V c).arrAt_eq_of_cover 11 (messages V c) (fun t _ => flushed_messages V c t) cover11

/-- After the region the shift array holds the position shifts. -/
theorem shift_array (c : Dev nD) : (dat0 V c).arrAt 12 cfg0.N = shifts V c :=
  (dat0 V c).arrAt_eq_of_cover 12 (shifts V c) (fun t _ => flushed_shifts V c t) cover12

end Cert.KernelIdeal.EdgeArray

end
-- ==== Proof.RefStages.lean ====
/-
  The reference program's stages read at an index, in the terms of the specification.

  * The message row of an edge: the stacked row (the two end nodes' feature rows, then the squared length of the
    position difference) times the stacked weight matrix is the sum of the three block products; the bias is added,
    silu applied; then the second product, bias and silu.
  * The position shift of an edge: the difference divided by (its length plus ε), times the gate.
  * The new feature row of a node: the stacked row (the node's features, then the sum of its edges' messages) times the
    stacked weight matrix is the sum of the two block products; bias, silu, the second product, bias, and the residual.

  The reference's silu is y · (1 / (1 + exp(−y))), which is y · σ(y).
-/
import proofs.«181461_j11742440587289_2_alg».proof.Proof.Gen.ReferenceIdeal.Read
import proofs.«181461_j11742440587289_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.Stages

open Cert.ReferenceIdeal Cert.ReferenceIdeal.Gen Cert.ReferenceIdeal.Read Cert.GraphLayer
open Idealize.ShloMosaic Idealize.ShloMosaic.TcCoe Idealize.SL.Sem Idealize.ShloMosaic.StableHlo Idealize.ShloMosaic.ValueIdx

/-! ## The stacked edge row: features of the two end nodes, then the squared length -/

section
variable (x0 : (⟨S50000x128, .f32⟩ : BufTy).Contents (Elt Ideal)) (x1 : (⟨S50000x3, .f32⟩ : BufTy).Contents (Elt Ideal))
  (x2 : (⟨S2x800000, .i32⟩ : BufTy).Contents (Elt Ideal))

/-- Column k < 128 of the stacked row is the first end node's feature k. -/
theorem stacked_left (e : Fin 800000) (k : Fin 128) :
    val_main_v36 (F := Ideal) x0 x1 x2 (ix2 e (⟨k.val, by omega⟩ : Fin 257)) = val_main_v28 (F := Ideal) x0 x2 (ix2 e k) := by
  unfold val_main_v36
  refine concatenate_apply_piece (t := S800000x257) (1 : Fin 2)
    [⟨S800000x128, (val_main_v28 (F := Ideal) x0 x2)⟩, ⟨S800000x128, (val_main_v35 (F := Ideal) x0 x2)⟩, ⟨S800000x1, (val_main_v21 (F := Ideal) x1 x2)⟩]
    concatenates_S800000x128_S800000x128_S800000x1_S800000x257_d1 (ix2 e (⟨k.val, by omega⟩ : Fin 257)) 0 (by show (0 : Nat) < 3; omega) S800000x128 _ rfl rfl 0 rfl
    (ix2 e k) (fun b hb => ?_) ?_
  · match b with
    | ⟨0, _⟩ => rfl
    | ⟨1, _⟩ => exact absurd rfl hb
  · show 0 + k.val = k.val
    omega

/-- Column 128 + k of the stacked row is the second end node's feature k. -/
theorem stacked_mid (e : Fin 800000) (k : Fin 128) :
    val_main_v36 (F := Ideal) x0 x1 x2 (ix2 e (⟨128 + k.val, by omega⟩ : Fin 257)) = val_main_v35 (F := Ideal) x0 x2 (ix2 e k) := by
  unfold val_main_v36
  refine concatenate_apply_piece (t := S800000x257) (1 : Fin 2)
    [⟨S800000x128, (val_main_v28 (F := Ideal) x0 x2)⟩, ⟨S800000x128, (val_main_v35 (F := Ideal) x0 x2)⟩, ⟨S800000x1, (val_main_v21 (F := Ideal) x1 x2)⟩]
    concatenates_S800000x128_S800000x128_S800000x1_S800000x257_d1 (ix2 e (⟨128 + k.val, by omega⟩ : Fin 257)) 1 (by show (1 : Nat) < 3; omega) S800000x128 _ rfl rfl 128 rfl
    (ix2 e k) (fun b hb => ?_) ?_
  · match b with
    | ⟨0, _⟩ => rfl
    | ⟨1, _⟩ => exact absurd rfl hb
  · rfl

/-- Column 256 of the stacked row is the squared-length column. -/
theorem stacked_last (e : Fin 800000) :
    val_main_v36 (F := Ideal) x0 x1 x2 (ix2 e (⟨256, by omega⟩ : Fin 257)) = val_main_v21 (F := Ideal) x1 x2 (ix2 e (0 : Fin 1)) := by
  unfold val_main_v36
  refine concatenate_apply_piece (t := S800000x257) (1 : Fin 2)
    [⟨S800000x128, (val_main_v28 (F := Ideal) x0 x2)⟩, ⟨S800000x128, (val_main_v35 (F := Ideal) x0 x2)⟩, ⟨S800000x1, (val_main_v21 (F := Ideal) x1 x2)⟩]
    concatenates_S800000x128_S800000x128_S800000x1_S800000x257_d1 (ix2 e (⟨256, by omega⟩ : Fin 257)) 2 (by show (2 : Nat) < 3; omega) S800000x1 _ rfl rfl 256 rfl
    (ix2 e (0 : Fin 1)) (fun b hb => ?_) ?_
  · match b with
    | ⟨0, _⟩ => rfl
    | ⟨1, _⟩ => exact absurd rfl hb
  · rfl

end

/-! ## The squared length and silu -/

theorem one_word : Ideal.ofBits .f32 0x3F800000#32 = 1 := by
  simp [Ideal.ofBits, Ideal.ieee, -EReal.coe_mul]; norm_num

/-- The reference's silu, operation by operation, is y · σ(y). -/
theorem silu_ops (y : Ideal .f32) :
    FloatOps.mulf y (FloatOps.hostDivf (FloatOps.ofBits (F := Ideal) .f32 0x3F800000#32)
      (FloatOps.addf (FloatOps.ofBits (F := Ideal) .f32 0x3F800000#32) (FloatOps.hostUnary .exp (FloatOps.hostNegf y)))) = silu y := by
  simp only [Ideal.mulf_def, Ideal.hostDivf_def, Ideal.addf_def, Ideal.hostUnary_exp_def, Ideal.hostNegf_def, Ideal.negf_def,
    Ideal.ofBits_def, one_word]
  rfl

section
variable (x1 : (⟨S50000x3, .f32⟩ : BufTy).Contents (Elt Ideal)) (x2 : (⟨S2x800000, .i32⟩ : BufTy).Contents (Elt Ideal))

/-- The squared-length column of an edge. -/
theorem sqlen_col (e : Fin 800000) :
    val_main_v21 (F := Ideal) x1 x2 (ix2 e (0 : Fin 1)) = sqLen fun j => val_main_v18 (F := Ideal) x1 x2 (ix2 e j) := by
  rw [val_main_v21_apply, val_main_v20_apply, val_main_cst_apply, Ideal.ofBits_def, Ideal.ofBits_zero_f32, zero_add]
  unfold sqLen
  refine Finset.sum_congr rfl fun k _ => ?_
  have hk : idx_main_v20 (idx_main_v21 (ix2 e (0 : Fin 1))) k = ix2 e k :=
    funext fun a => Fin.ext (by match a with | ⟨0, _⟩ => rfl | ⟨1, _⟩ => rfl)
  rw [hk, val_main_v19_apply, Ideal.mulf_def]

end

/-! ## The edge stage: hidden row, message row -/

section
variable (x0 : (⟨S50000x128, .f32⟩ : BufTy).Contents (Elt Ideal)) (x1 : (⟨S50000x3, .f32⟩ : BufTy).Contents (Elt Ideal))
  (x2 : (⟨S2x800000, .i32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-- The hidden row before silu: the product with the stacked weight matrix, split into its three blocks, plus the bias. -/
theorem hidden_pre (e : Fin 800000) (c : Fin 128) :
    val_main_v40 (F := Ideal) x0 x1 x2 x3 x4 (ix2 e c)
      = hiddenPre (fun k => val_main_v28 (F := Ideal) x0 x2 (ix2 e k)) (fun k => val_main_v35 (F := Ideal) x0 x2 (ix2 e k))
          (sqLen fun j => val_main_v18 (F := Ideal) x1 x2 (ix2 e j))
          (rows128 0 (by omega) x3) (rows128 128 (by omega) x3) (row1 256 (by omega) x3) x4 c := by
  have hl : ∀ k : Fin 257, lidx_main_v37 (ix2 e c) k = ix2 e k := fun k =>
    funext fun a => Fin.ext (by match a with | ⟨0, _⟩ => rfl | ⟨1, _⟩ => rfl)
  have hr : ∀ k : Fin 257, ridx_main_v37 (ix2 e c) k = ix2 k c := fun k =>
    funext fun a => Fin.ext (by match a with | ⟨0, _⟩ => rfl | ⟨1, _⟩ => rfl)
  have hb : idx_main_v38 (idx_main_v39 (ix2 e c)) = ix1 c :=
    funext fun a => Fin.ext (by match a with | ⟨0, _⟩ => rfl)
  rw [val_main_v40_apply, val_main_v37_apply, val_main_v39_apply, val_main_v38_apply, hb, Ideal.addf_def]
  simp only [hl, hr]
  rw [sum_257]
  simp only [stacked_left, stacked_mid, stacked_last, sqlen_col]
  unfold hiddenPre
  simp only [rows128_apply, row1_apply, Nat.zero_add]

/-- The hidden row. -/
theorem hidden (e : Fin 800000) (c : Fin 128) :
    val_main_v41 (F := Ideal) x0 x1 x2 x3 x4 (ix2 e c)
      = silu (hiddenPre (fun k => val_main_v28 (F := Ideal) x0 x2 (ix2 e k)) (fun k => val_main_v35 (F := Ideal) x0 x2 (ix2 e k))
          (sqLen fun j => val_main_v18 (F := Ideal) x1 x2 (ix2 e j))
          (rows128 0 (by omega) x3) (rows128 128 (by omega) x3) (row1 256 (by omega) x3) x4 c) := by
  rw [val_main_v41_apply, val_main_call0_v5_apply, val_main_call0_v4_apply, val_main_call0_cst_0_apply, val_main_call0_v3_apply,
    val_main_call0_v2_apply, val_main_call0_cst_apply, val_main_call0_v1_apply, val_main_call0_v0_apply, silu_ops, hidden_pre]

/-- The message row before silu. -/
theorem message_pre (e : Fin 800000) (c : Fin 128) :
    val_main_v45 (F := Ideal) x0 x1 x2 x3 x4 x5 x6 (ix2 e c)
      = messagePre (fun k => val_main_v28 (F := Ideal) x0 x2 (ix2 e k)) (fun k => val_main_v35 (F := Ideal) x0 x2 (ix2 e k))
          (sqLen fun j => val_main_v18 (F := Ideal) x1 x2 (ix2 e j))
          (rows128 0 (by omega) x3) (rows128 128 (by omega) x3) (row1 256 (by omega) x3) x4 x5 x6 c := by
  have hl : ∀ k : Fin 128, lidx_main_v42 (ix2 e c) k = ix2 e k := fun k =>
    funext fun a => Fin.ext (by match a with | ⟨0, _⟩ => rfl | ⟨1, _⟩ => rfl)
  have hr : ∀ k : Fin 128, ridx_main_v42 (ix2 e c) k = ix2 k c := fun k =>
    funext fun a => Fin.ext (by match a with | ⟨0, _⟩ => rfl | ⟨1, _⟩ => rfl)
  have hb : idx_main_v43 (idx_main_v44 (ix2 e c)) = ix1 c :=
    funext fun a => Fin.ext (by match a with | ⟨0, _⟩ => rfl)
  rw [val_main_v45_apply, val_main_v42_apply, val_main_v44_apply, val_main_v43_apply, hb, Ideal.addf_def]
  simp only [hl, hr, hidden]
  rfl

/-- **The message row of an edge.** -/
theorem message_eq (e : Fin 800000) (c : Fin 128) :
    val_main_v46 (F := Ideal) x0 x1 x2 x3 x4 x5 x6 (ix2 e c)
      = message (fun k => val_main_v28 (F := Ideal) x0 x2 (ix2 e k)) (fun k => val_main_v35 (F := Ideal) x0 x2 (ix2 e k))
          (sqLen fun j => val_main_v18 (F := Ideal) x1 x2 (ix2 e j))
          (rows128 0 (by omega) x3) (rows128 128 (by omega) x3) (row1 256 (by omega) x3) x4 x5 x6 c := by
  rw [val_main_v46_apply, val_main_call1_v5_apply, val_main_call1_v4_apply, val_main_call1_cst_0_apply, val_main_call1_v3_apply,
    val_main_call1_v2_apply, val_main_call1_cst_apply, val_main_call1_v1_apply, val_main_call1_v0_apply, silu_ops, message_pre]
  rfl

end

/-! ## The node stage -/

section
variable (x0 : (⟨S50000x128, .f32⟩ : BufTy).Contents (Elt Ideal)) (x1 : (⟨S50000x3, .f32⟩ : BufTy).Contents (Elt Ideal))
  (x2 : (⟨S2x800000, .i32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-- Column k < 128 of a node's stacked row is its feature k. -/
theorem nstacked_left (n : Fin 50000) (k : Fin 128) :
    val_main_v50 (F := Ideal) x0 x1 x2 x3 x4 x5 x6 (ix2 n (⟨k.val, by omega⟩ : Fin 256)) = x0 (ix2 n k) := by
  unfold val_main_v50
  refine concatenate_apply_piece (t := S50000x256) (1 : Fin 2)
    [⟨S50000x128, x0⟩, ⟨S50000x128, (val_main_v49 (F := Ideal) x0 x1 x2 x3 x4 x5 x6)⟩]
    concatenates_S50000x128_S50000x128_S50000x256_d1 (ix2 n (⟨k.val, by omega⟩ : Fin 256)) 0 (by show (0 : Nat) < 2; omega) S50000x128 _ rfl rfl 0 rfl
    (ix2 n k) (fun b hb => ?_) ?_
  · match b with
    | ⟨0, _⟩ => rfl
    | ⟨1, _⟩ => exact absurd rfl hb
  · show 0 + k.val = k.val
    omega

/-- Column 128 + k of a node's stacked row is entry k of the sum of its edges' messages. -/
theorem nstacked_right (n : Fin 50000) (k : Fin 128) :
    val_main_v50 (F := Ideal) x0 x1 x2 x3 x4 x5 x6 (ix2 n (⟨128 + k.val, by omega⟩ : Fin 256))
      = val_main_v49 (F := Ideal) x0 x1 x2 x3 x4 x5 x6 (ix2 n k) := by
  unfold val_main_v50
  refine concatenate_apply_piece (t := S50000x256) (1 : Fin 2)
    [⟨S50000x128, x0⟩, ⟨S50000x128, (val_main_v49 (F := Ideal) x0 x1 x2 x3 x4 x5 x6)⟩]
    concatenates_S50000x128_S50000x128_S50000x256_d1 (ix2 n (⟨128 + k.val, by omega⟩ : Fin 256)) 1 (by show (1 : Nat) < 2; omega) S50000x128 _ rfl rfl 128 rfl
    (ix2 n k) (fun b hb => ?_) ?_
  · match b with
    | ⟨0, _⟩ => rfl
    | ⟨1, _⟩ => exact absurd rfl hb
  · rfl

end

section
variable (x0 : (⟨S50000x128, .f32⟩ : BufTy).Contents (Elt Ideal)) (x1 : (⟨S50000x3, .f32⟩ : BufTy).Contents (Elt Ideal))
  (x2 : (⟨S2x800000, .i32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))
  (x7 : (⟨S256x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))

/-- A node's hidden row before silu. -/
theorem node_hidden_pre (n : Fin 50000) (c : Fin 128) :
    val_main_v54 (F := Ideal) x0 x1 x2 x3 x4 x5 x6 x7 x8 (ix2 n c)
      = ((∑ l : Fin 128, x0 (ix2 n l) * rows128 0 (by omega) x7 (ix2 l c))
          + ∑ l : Fin 128, val_main_v49 (F := Ideal) x0 x1 x2 x3 x4 x5 x6 (ix2 n l) * rows128 128 (by omega) x7 (ix2 l c))
        + x8 (ix1 c) := by
  have hl : ∀ k : Fin 256, lidx_main_v51 (ix2 n c) k = ix2 n k := fun k =>
    funext fun a => Fin.ext (by match a with | ⟨0, _⟩ => rfl | ⟨1, _⟩ => rfl)
  have hr : ∀ k : Fin 256, ridx_main_v51 (ix2 n c) k = ix2 k c := fun k =>
    funext fun a => Fin.ext (by match a with | ⟨0, _⟩ => rfl | ⟨1, _⟩ => rfl)
  have hb : idx_main_v52 (idx_main_v53 (ix2 n c)) = ix1 c :=
    funext fun a => Fin.ext (by match a with | ⟨0, _⟩ => rfl)
  rw [val_main_v54_apply, val_main_v51_apply, val_main_v53_apply, val_main_v52_apply, hb, Ideal.addf_def]
  simp only [hl, hr]
  rw [sum_256]
  simp only [nstacked_left, nstacked_right, rows128_apply, Nat.zero_add]

/-- A node's hidden row. -/
theorem node_hidden (n : Fin 50000) (c : Fin 128) :
    val_main_v55 (F := Ideal) x0 x1 x2 x3 x4 x5 x6 x7 x8 (ix2 n c)
      = silu (((∑ l : Fin 128, x0 (ix2 n l) * rows128 0 (by omega) x7 (ix2 l c))
          + ∑ l : Fin 128, val_main_v49 (F := Ideal) x0 x1 x2 x3 x4 x5 x6 (ix2 n l) * rows128 128 (by omega) x7 (ix2 l c))
        + x8 (ix1 c)) := by
  rw [val_main_v55_apply, val_main_call2_v5_apply, val_main_call2_v4_apply, val_main_call2_cst_0_apply, val_main_call2_v3_apply,
    val_main_call2_v2_apply, val_main_call2_cst_apply, val_main_call2_v1_apply, val_main_call2_v0_apply, silu_ops, node_hidden_pre]

/-- **The new feature row of a node.** -/
theorem node_eq (n : Fin 50000) (c : Fin 128) :
    val_main_v60 (F := Ideal) x0 x1 x2 x3 x4 x5 x6 x7 x8 x9 x10 (ix2 n c)
      = nodeOut (fun k => x0 (ix2 n k)) (fun k => val_main_v49 (F := Ideal) x0 x1 x2 x3 x4 x5 x6 (ix2 n k))
          (rows128 0 (by omega) x7) (rows128 128 (by omega) x7) x8 x9 x10 c := by
  have hl : ∀ k : Fin 128, lidx_main_v56 (ix2 n c) k = ix2 n k := fun k =>
    funext fun a => Fin.ext (by match a with | ⟨0, _⟩ => rfl | ⟨1, _⟩ => rfl)
  have hr : ∀ k : Fin 128, ridx_main_v56 (ix2 n c) k = ix2 k c := fun k =>
    funext fun a => Fin.ext (by match a with | ⟨0, _⟩ => rfl | ⟨1, _⟩ => rfl)
  have hb : idx_main_v57 (idx_main_v58 (ix2 n c)) = ix1 c :=
    funext fun a => Fin.ext (by match a with | ⟨0, _⟩ => rfl)
  rw [val_main_v60_apply, val_main_v59_apply, val_main_v56_apply, val_main_v58_apply, val_main_v57_apply, hb,
    Ideal.addf_def, Ideal.addf_def]
  simp only [hl, hr, node_hidden]
  rfl

end

/-! ## The position shift -/

section
variable (x1 : (⟨S50000x3, .f32⟩ : BufTy).Contents (Elt Ideal)) (x2 : (⟨S2x800000, .i32⟩ : BufTy).Contents (Elt Ideal))

/-- The length of an edge's position difference plus ε, the divisor of the shift. -/
theorem divisor (e : Fin 800000) :
    val_main_v68 (F := Ideal) x1 x2 (ix2 e (0 : Fin 1))
      = Ideal.sqrt (sqLen fun j => val_main_v18 (F := Ideal) x1 x2 (ix2 e j)) + Ideal.ofBits .f32 0x322BCC77#32 := by
  rw [val_main_v68_apply, val_main_v66_apply, val_main_call4_v2_apply, val_main_call4_v1_apply, val_main_call4_cst_apply,
    val_main_v67_apply, val_main_cst_8_apply, Ideal.addf_def, Ideal.hostUnary_sqrt_def, Ideal.ofBits_def, Ideal.ofBits_def,
    Ideal.ofBits_zero_f32, zero_add]
  unfold sqLen
  refine congrArg (fun t => Ideal.sqrt t + Ideal.ofBits .f32 0x322BCC77#32) (Finset.sum_congr rfl fun k _ => ?_)
  have hk : idx_main_call4_v1 (idx_main_call4_v2 (ix2 e (0 : Fin 1))) k = ix2 e k :=
    funext fun a => Fin.ext (by match a with | ⟨0, _⟩ => rfl | ⟨1, _⟩ => rfl)
  rw [hk, val_main_call4_v0_apply, Ideal.mulf_def]

end

section
variable (x0 : (⟨S50000x128, .f32⟩ : BufTy).Contents (Elt Ideal)) (x1 : (⟨S50000x3, .f32⟩ : BufTy).Contents (Elt Ideal))
  (x2 : (⟨S2x800000, .i32⟩ : BufTy).Contents (Elt Ideal)) (x3 : (⟨S257x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))
  (x11 : (⟨S128x1, .f32⟩ : BufTy).Contents (Elt Ideal)) (x12 : (⟨S1, .f32⟩ : BufTy).Contents (Elt Ideal))

/-- The gate of an edge. -/
theorem gate_col (e : Fin 800000) :
    val_main_v65 (F := Ideal) x0 x1 x2 x3 x4 x5 x6 x11 x12 (ix2 e (0 : Fin 1))
      = gate (fun k => val_main_v46 (F := Ideal) x0 x1 x2 x3 x4 x5 x6 (ix2 e k)) (fun k => x11 (ix2 k (0 : Fin 1)))
          (x12 (ix1 (0 : Fin 1))) := by
  have hl : ∀ k : Fin 128, lidx_main_v61 (ix2 e (0 : Fin 1)) k = ix2 e k := fun k =>
    funext fun a => Fin.ext (by match a with | ⟨0, _⟩ => rfl | ⟨1, _⟩ => rfl)
  have hr : ∀ k : Fin 128, ridx_main_v61 (ix2 e (0 : Fin 1)) k = ix2 k (0 : Fin 1) := fun k =>
    funext fun a => Fin.ext (by match a with | ⟨0, _⟩ => rfl | ⟨1, _⟩ => rfl)
  have hb : idx_main_v62 (idx_main_v63 (ix2 e (0 : Fin 1))) = ix1 (0 : Fin 1) :=
    funext fun a => Fin.ext (by match a with | ⟨0, _⟩ => rfl)
  rw [val_main_v65_apply, val_main_call3_v5_apply, val_main_call3_v4_apply, val_main_call3_cst_0_apply, val_main_call3_v3_apply,
    val_main_call3_v2_apply, val_main_call3_cst_apply, val_main_call3_v1_apply, val_main_call3_v0_apply, silu_ops,
    val_main_v64_apply, val_main_v61_apply, val_main_v63_apply, val_main_v62_apply, hb, Ideal.addf_def]
  simp only [hl, hr]
  rfl

/-- **The position shift of an edge.** -/
theorem shift_eq (e : Fin 800000) (j : Fin 3) :
    val_main_v72 (F := Ideal) x0 x1 x2 x3 x4 x5 x6 x11 x12 (ix2 e j)
      = shift (fun j' => val_main_v18 (F := Ideal) x1 x2 (ix2 e j'))
          (gate (fun k => val_main_v46 (F := Ideal) x0 x1 x2 x3 x4 x5 x6 (ix2 e k)) (fun k => x11 (ix2 k (0 : Fin 1)))
            (x12 (ix1 (0 : Fin 1)))) j := by
  have h69 : idx_main_v69 (ix2 e j) = ix2 e (0 : Fin 1) :=
    funext fun a => Fin.ext (by match a with | ⟨0, _⟩ => rfl | ⟨1, _⟩ => rfl)
  have h71 : idx_main_v71 (ix2 e j) = ix2 e (0 : Fin 1) :=
    funext fun a => Fin.ext (by match a with | ⟨0, _⟩ => rfl | ⟨1, _⟩ => rfl)
  rw [val_main_v72_apply, val_main_v70_apply, val_main_v69_apply, val_main_v71_apply, h69, h71, divisor, gate_col,
    Ideal.mulf_def, Ideal.hostDivf_def]
  rfl

end

end Cert.ReferenceIdeal.Stages

end
-- ==== Proof.BridgeMid.lean ====
/-
  The edge stage's two output arrays are the reference's message and shift stages.

  Row e of each depends on the gathered rows of edge e only, through the same row function on both sides: on the kernel's
  side by the region's tiles (EdgeArray.lean), on the reference's by reading its stages at an index (RefStages.lean); and the
  arrays the region finds are the reference's own gathered arrays and the blocks of the stacked weight matrix
  (BridgeEntry.lean).
-/
import proofs.«181461_j11742440587289_2_alg».proof.Proof.BridgeEntry
import proofs.«181461_j11742440587289_2_alg».proof.Proof.EdgeArray
import proofs.«181461_j11742440587289_2_alg».proof.Proof.RefStages

set_option maxRecDepth 16384

noncomputable section

namespace Cert.Bridge

open Idealize.ShloMosaic Idealize.ShloMosaic.TcCoe Idealize.SL.Sem Idealize.ShloMosaic.ValueIdx Idealize.ShloMosaic.StableHlo
open Cert.KernelIdeal Cert.KernelIdeal.Gen Cert.GraphLayer Cert.KernelIdeal.EdgeArray

variable (m : (ℓ : Loc nD τ sig) → Buf (Elt Ideal) ℓ) (ρ : Dev nD → PrngReg) (c : Dev nD)

/-- The message array the edge stage leaves is the reference's message stage. -/
theorem messages_eq : messages (V1 m ρ) c
    = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨e, q, rfl⟩ : ∃ (e : Fin 800000) (q : Fin 128), i = ix2 e q := ⟨i 0, i 1, eq_ix2 i⟩
  rw [Cert.ReferenceIdeal.Stages.message_eq]
  unfold messages
  rw [show (V1 m ρ c main_v11 : S800000x128.Idx → EReal) = _ from entry_v11 m ρ c,
    show (V1 m ρ c main_v18 : S800000x128.Idx → EReal) = _ from entry_v18 m ρ c,
    show (V1 m ρ c main_v33 : S800000x3.Idx → EReal) = _ from entry_v33 m ρ c,
    show (V1 m ρ c main_v34 : S128x128.Idx → EReal) = _ from entry_v34 m ρ c,
    show (V1 m ρ c main_v35 : S128x128.Idx → EReal) = _ from entry_v35 m ρ c,
    show (V1 m ρ c main_v37 : S128.Idx → EReal) = _ from entry_v37 m ρ c,
    show V1 m ρ c main_arg4 = _ from entry_arg4 m ρ c,
    show V1 m ρ c main_arg5 = _ from entry_arg5 m ρ c,
    show V1 m ρ c main_arg6 = _ from entry_arg6 m ρ c]

/-- The shift array the edge stage leaves is the reference's shift stage. -/
theorem shifts_eq : shifts (V1 m ρ) c
    = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) := by
  funext i
  obtain ⟨e, j, rfl⟩ : ∃ (e : Fin 800000) (j : Fin 3), i = ix2 e j := ⟨i 0, i 1, eq_ix2 i⟩
  rw [Cert.ReferenceIdeal.Stages.shift_eq]
  unfold shifts
  have h38 : (fun k : Fin 128 => (V1 m ρ c main_v38 : S128.Idx → EReal) (ix1 k))
      = fun k => ((m ((c : Thread nD τ).loc main_arg11)) : S128x1.Idx → EReal) (ix2 k (0 : Fin 1)) := funext fun k => entry_v38 m ρ c k
  rw [messages_eq, h38,
    show (V1 m ρ c main_v33 : S800000x3.Idx → EReal) = _ from entry_v33 m ρ c,
    show V1 m ρ c main_arg12 = _ from entry_arg12 m ρ c]

end Cert.Bridge

end
-- ==== Proof.NodeArray.lean ====
/-
  The node stage's body, one row at a time, and then the whole output array of the node stage as one function of its
  seven input arrays.
-/
import proofs.«181461_j11742440587289_2_alg».proof.Proof.KernelIdealFrame
import proofs.«181461_j11742440587289_2_alg».proof.Proof.Spec
import proofs.«181461_j11742440587289_2_alg».proof.Proof.LibPlainDot
import proofs.«181461_j11742440587289_2_alg».proof.Proof.LibColSum
import Idealize.ShloMosaic.Lib.Pipeline.Value
import Idealize.ShloMosaic.Lib.ValueLayout

noncomputable section

open scoped BigOperators

namespace Cert.KernelIdeal.NodeArray

open Idealize.ShloMosaic Idealize.ShloMosaic.TcCoe Idealize.SL.Sem Idealize.ShloMosaic.ValueIdx Cert.KernelIdeal Cert.KernelIdeal.Gen Cert.GraphLayer
open Idealize.ShloMosaic.Pipeline (Dat)

theorem dot_plain1 : dot_S5000x128_S128x128_S5000x128_1_0_0_1_n_n = DotDims.plain 5000 128 128 := rfl

/-- A [128] vector cast to a [1, 128] row and broadcast down 5000 rows reads, at (p, c), the vector's entry c. -/
theorem bias_apply (v : Vec Ideal S128 .f32) (p : Fin 5000) (c : Fin 128) :
    broadcastTo S5000x128 (shapeCast S1x128 v shapeCasts_S128_S1x128) broadcasts_S1x128_S5000x128 (ix2 p c) = v (ix1 c) := by
  rw [broadcastTo_apply _ _ _ (ix2 (0 : Fin 1) c) (by
    intro a
    match a with
    | ⟨0, _⟩ => rfl
    | ⟨1, _⟩ => rfl)]
  exact Cert.LibColSum.row_of_vec v _ c

/-- The hidden row of a node before silu: the two products of row p with the two weight blocks, plus the bias. -/
theorem hidden_row (v0 v1 : Vec Ideal S5000x128 .f32) (v5 v8 : Vec Ideal S128x128 .f32) (v14 : Vec Ideal S128 .f32)
    (p : Fin 5000) (k : Fin 128) :
    addf
        (addf
          (matmul (F := Ideal) (DotDims.plain 5000 128 128) none (truncf .bf16 v0 bitsLt_bf16_f32)
            (truncf .bf16 (shapeCast S128x128 v5 shapeCasts_S128x128_S128x128) bitsLt_bf16_f32)
            (constant S5000x128 .f32 0x00000000#32))
          (matmul (F := Ideal) (DotDims.plain 5000 128 128) none
            (truncf .bf16 (shapeCast S5000x128 v1 shapeCasts_S5000x128_S5000x128) bitsLt_bf16_f32)
            (truncf .bf16 (shapeCast S128x128 v8 shapeCasts_S128x128_S128x128) bitsLt_bf16_f32)
            (constant S5000x128 .f32 0x00000000#32)))
        (broadcastTo S5000x128 (shapeCast S1x128 v14 shapeCasts_S128_S1x128) broadcasts_S1x128_S5000x128)
        (ix2 p k)
      = ((∑ l : Fin 128, v0 (ix2 p l) * v5 (ix2 l k)) + ∑ l : Fin 128, v1 (ix2 p l) * v8 (ix2 l k)) + v14 (ix1 k) := by
  rw [addf_apply, addf_apply, bias_apply, Cert.LibPlainDot.matmul_plain, Cert.LibPlainDot.matmul_plain]
  simp only [shapeCast_self]
  rfl

/-- Row p of the node stage's body is the node row function of row p of the two tiles. -/
theorem node_row (v0 v1 : Vec Ideal S5000x128 .f32) (v5 v8 : Vec Ideal S128x128 .f32) (v14 : Vec Ideal S128 .f32)
    (v21 : Vec Ideal S128x128 .f32) (v24 : Vec Ideal S128 .f32) (p : Fin 5000) (c : Fin 128) :
    k1_pay1 (F := Ideal) v0 v1 v5 v8 v14 v21 v24 (ix2 p c)
      = nodeOut (fun k => v0 (ix2 p k)) (fun k => v1 (ix2 p k)) v5 v8 v14 v21 v24 c := by
  unfold k1_pay1 nodeOut
  dsimp only
  rw [addf_apply, addf_apply, bias_apply, dot_plain1, Cert.LibPlainDot.matmul_plain]
  refine congrArg (fun s => v0 (ix2 p c) + (s + v24 (ix1 c))) (Finset.sum_congr rfl fun k _ => ?_)
  rw [truncf_apply, truncf_apply, mulf_apply]
  show _ * _ = silu _ * _
  refine congrArg (fun s => s * v21 (ix2 k c)) ?_
  have e : (ix2 p c : S5000x128.Idx) 0 = p := rfl
  rw [e]
  unfold logistic
  rw [hidden_row]
  rfl

/-! ## From the tiles of rows to the whole array -/

variable (V : (c : Dev nD) → (b : Ref sig .tc) → Buf (Elt Ideal) ((c : Thread nD τ).loc b))

theorem zero2 : (![0, 0] : Fin 2 → Nat) = fun _ => 0 := funext fun a => by fin_cases a <;> rfl

theorem zero1 : (![0] : Fin 1 → Nat) = fun _ => 0 := funext fun a => by fin_cases a; rfl

/-- The node stage has ten tiles. -/
theorem ten (t : Fin cfg1.N) : t.val < 10 := lt_of_lt_of_eq t.isLt N_1

/-- The printed index maps, decided over the ten tiles: tile t of the two row arrays and of the result is block row t;
    every weight array is its one whole block. -/
theorem tile_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Tile t of the feature array: its row p is row 5000·t + p of the array. -/
theorem tile_x (c : Dev nD) (t : Fin cfg1.N) (p : Fin 5000) (k : Fin 128) (n : Fin 50000) (hn : n.val = 5000 * t.val + p.val) :
    (iblk1 (F := Ideal) V c 0 t : Vec Ideal S5000x128 .f32) (ix2 p k) = (V c main_arg0 : S50000x128.Idx → EReal) (ix2 n k) := by
  obtain ⟨e0, e1, -⟩ := tile_index t
  unfold iblk1
  rw [View.read_apply]
  show V c main_arg0 _ = V c main_arg0 _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 128 + 1 * k.val = k.val; rw [e1]; omega

/-- Tile t of the summed messages: its row p is row 5000·t + p of the array. -/
theorem tile_z (c : Dev nD) (t : Fin cfg1.N) (p : Fin 5000) (k : Fin 128) (n : Fin 50000) (hn : n.val = 5000 * t.val + p.val) :
    (iblk1 (F := Ideal) V c 1 t : Vec Ideal S5000x128 .f32) (ix2 p k) = (V c main_v43 : S50000x128.Idx → EReal) (ix2 n k) := by
  obtain ⟨-, -, e0, e1, -⟩ := tile_index t
  unfold iblk1
  rw [View.read_apply]
  show V c main_v43 _ = V c main_v43 _
  congr 1
  funext a
  apply Fin.ext
  match a with
  | ⟨0, _⟩ => show win1_1.index t (0 : Fin 2) * 5000 + 1 * p.val = n.val; rw [e0, hn]; omega
  | ⟨1, _⟩ => show win1_1.index t (1 : Fin 2) * 128 + 1 * k.val = k.val; rw [e1]; omega

/-- A weight array is its own one tile, at every point. -/
theorem tile_P (c : Dev nD) (t : Fin cfg1.N) : (iblk1 (F := Ideal) V c 2 t : Vec Ideal S128x128 .f32) = V c main_v47 := by
  obtain ⟨-, -, -, -, e0, e1, -⟩ := tile_index t
  funext j
  unfold iblk1
  rw [View.read_apply]
  show V c main_v47 _ = V c main_v47 j
  congr 1
  funext a
  apply Fin.ext
  match a with
  | ⟨0, _⟩ => show win1_2.index t (0 : Fin 2) * 128 + 1 * (j 0).val = (j 0).val; rw [e0]; omega
  | ⟨1, _⟩ => show win1_2.index t (1 : Fin 2) * 128 + 1 * (j 1).val = (j 1).val; rw [e1]; omega

theorem tile_Q (c : Dev nD) (t : Fin cfg1.N) : (iblk1 (F := Ideal) V c 3 t : Vec Ideal S128x128 .f32) = V c main_v48 := by
  obtain ⟨-, -, -, -, -, -, e0, e1, -⟩ := tile_index t
  funext j
  unfold iblk1
  rw [View.read_apply]
  show V c main_v48 _ = V c main_v48 j
  congr 1
  funext a
  apply Fin.ext
  match a with
  | ⟨0, _⟩ => show win1_3.index t (0 : Fin 2) * 128 + 1 * (j 0).val = (j 0).val; rw [e0]; omega
  | ⟨1, _⟩ => show win1_3.index t (1 : Fin 2) * 128 + 1 * (j 1).val = (j 1).val; rw [e1]; omega

theorem tile_t (c : Dev nD) (t : Fin cfg1.N) : (iblk1 (F := Ideal) V c 4 t : Vec Ideal S128 .f32) = V c main_arg8 := by
  obtain ⟨-, -, -, -, -, -, -, -, e0, -⟩ := tile_index t
  funext j
  unfold iblk1
  rw [View.read_apply]
  show V c main_arg8 _ = V c main_arg8 j
  congr 1
  funext a
  apply Fin.ext
  match a with
  | ⟨0, _⟩ => show win1_4.index t (0 : Fin 1) * 128 + 1 * (j 0).val = (j 0).val; rw [e0]; omega

theorem tile_R (c : Dev nD) (t : Fin cfg1.N) : (iblk1 (F := Ideal) V c 5 t : Vec Ideal S128x128 .f32) = V c main_arg9 := by
  obtain ⟨-, -, -, -, -, -, -, -, -, e0, e1, -⟩ := tile_index t
  funext j
  unfold iblk1
  rw [View.read_apply]
  show V c main_arg9 _ = V c main_arg9 j
  congr 1
  funext a
  apply Fin.ext
  match a with
  | ⟨0, _⟩ => show win1_5.index t (0 : Fin 2) * 128 + 1 * (j 0).val = (j 0).val; rw [e0]; omega
  | ⟨1, _⟩ => show win1_5.index t (1 : Fin 2) * 128 + 1 * (j 1).val = (j 1).val; rw [e1]; omega

theorem tile_w (c : Dev nD) (t : Fin cfg1.N) : (iblk1 (F := Ideal) V c 6 t : Vec Ideal S128 .f32) = V c main_arg10 := by
  obtain ⟨-, -, -, -, -, -, -, -, -, -, -, e0, -⟩ := tile_index t
  funext j
  unfold iblk1
  rw [View.read_apply]
  show V c main_arg10 _ = V c main_arg10 j
  congr 1
  funext a
  apply Fin.ext
  match a with
  | ⟨0, _⟩ => show win1_6.index t (0 : Fin 1) * 128 + 1 * (j 0).val = (j 0).val; rw [e0]; omega

/-- The node stage's result array as one function of its seven input arrays: row n is the node row function of row n of the
    features and of row n of the summed messages, against the weights. -/
abbrev nodeArray (c : Dev nD) : S50000x128.Idx → EReal := fun i =>
  nodeOut (fun k => (V c main_arg0 : S50000x128.Idx → EReal) (ix2 (i 0) k)) (fun k => (V c main_v43 : S50000x128.Idx → EReal) (ix2 (i 0) k))
    (V c main_v47) (V c main_v48) (V c main_arg8) (V c main_arg9) (V c main_arg10) (i 1)

theorem nodeArray_apply (c : Dev nD) (n : Fin 50000) (q : Fin 128) :
    nodeArray V c (ix2 n q) = nodeOut (fun k => (V c main_arg0 : S50000x128.Idx → EReal) (ix2 n k)) (fun k => (V c main_v43 : S50000x128.Idx → EReal) (ix2 n k))
      (V c main_v47) (V c main_v48) (V c main_arg8) (V c main_arg9) (V c main_arg10) q := rfl

/-- Tile t of the result: its entry (p, q) lies at (5000·t + p, q) of the array. -/
theorem tile_out (t : Fin cfg1.N) (p : Fin 5000) (q : Fin 128) (n : Fin 50000) (hn : n.val = 5000 * t.val + p.val) :
    ((cfg1.win 7).blk t).view.emb (ix2 p q) = (ix2 n q : S50000x128.Idx) := by
  obtain ⟨-, -, -, -, -, -, -, -, -, -, -, -, e0, e1⟩ := tile_index t
  funext a
  apply Fin.ext
  match a with
  | ⟨0, _⟩ => show win1_7.index t (0 : Fin 2) * 5000 + 1 * p.val = n.val; rw [e0, hn]; omega
  | ⟨1, _⟩ => show win1_7.index t (1 : Fin 2) * 128 + 1 * q.val = q.val; rw [e1]; omega

/-- What tile t writes back is tile t of the whole-array function. -/
theorem tile_flushed (c : Dev nD) (t : Fin cfg1.N) :
    (dat1 (F := Ideal) V c).flushed 7 t = ((cfg1.win 7).blk t).view.read (Elt Ideal) (nodeArray V c) := by
  show (cfg1.win 7).cut (grid1.coords t) ((dat1 (F := Ideal) V c).after 7 t) = _
  rw [after1_7]
  unfold out1_7
  rw [View.canon_unit_zero zero2]
  simp only [View.ld_unit_zero (S := S5000x128) zero2, View.ld_unit_zero (S := S128x128) zero2, View.ld_unit_zero (S := S128) zero1]
  rw [tile_P, tile_Q, tile_t, tile_R, tile_w]
  funext j
  obtain ⟨p, q, rfl⟩ : ∃ (p : Fin 5000) (q : Fin 128), j = ix2 p q := ⟨j 0, j 1, eq_ix2 j⟩
  have hn : 5000 * t.val + p.val < 50000 := by have := ten t; have := p.isLt; omega
  show k1_pay1 (F := Ideal) (iblk1 V c 0 t) (iblk1 V c 1 t) (V c main_v47) (V c main_v48) (V c main_arg8) (V c main_arg9) (V c main_arg10) (ix2 p q)
      = nodeArray V c (((cfg1.win 7).blk t).view.emb (ix2 p q))
  rw [tile_out t p q ⟨_, hn⟩ rfl, nodeArray_apply]
  refine (node_row _ _ _ _ _ _ _ p q).trans ?_
  have hx : (fun k : Fin 128 => (iblk1 (F := Ideal) V c 0 t : Vec Ideal S5000x128 .f32) (ix2 p k))
      = fun k => (V c main_arg0 : S50000x128.Idx → EReal) (ix2 ⟨_, hn⟩ k) := funext fun k => tile_x V c t p k ⟨_, hn⟩ rfl
  have hy : (fun k : Fin 128 => (iblk1 (F := Ideal) V c 1 t : Vec Ideal S5000x128 .f32) (ix2 p k))
      = fun k => (V c main_v43 : S50000x128.Idx → EReal) (ix2 ⟨_, hn⟩ k) := funext fun k => tile_z V c t p k ⟨_, hn⟩ rfl
  rw [hx, hy]

/-- An index of the array is in tile t iff each coordinate is in the tile's range on its axis. -/
theorem tile_mem (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v49).slice (win1_7.rect t)).set ↔ _
  rw [View.set_slice_whole, Rect.mem_set_unit]
  exact Iff.rfl

/-- The ten tiles of 5000 rows cover the 50000 rows: row r is in tile r / 5000. -/
theorem tiles_cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : (i 0).val / 5000 < cfg1.N := by rw [show cfg1.N = 10 from N_1]; omega
  refine ⟨⟨(i 0).val / 5000, hN⟩, flush1_7 _, ?_⟩
  rw [tile_mem]
  obtain ⟨-, -, -, -, -, -, -, -, -, -, -, -, e0, e1⟩ := tile_index ⟨(i 0).val / 5000, hN⟩
  intro a
  match a with
  | ⟨0, _⟩ =>
    show win1_7.index ⟨(i 0).val / 5000, hN⟩ (0 : Fin 2) * 5000 ≤ (i 0).val ∧ (i 0).val < win1_7.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win1_7.index ⟨(i 0).val / 5000, hN⟩ (1 : Fin 2) * 128 ≤ (i 1).val ∧ (i 1).val < win1_7.index ⟨(i 0).val / 5000, hN⟩ (1 : Fin 2) * 128 + 128
    rw [e1]
    omega

/-- The result array after the node stage is the whole-array function of the seven input arrays as the stage finds them. -/
theorem node_array (c : Dev nD) : (dat1 (F := Ideal) V c).arrAt 7 cfg1.N = nodeArray V c :=
  (dat1 (F := Ideal) V c).arrAt_eq_of_cover 7 (nodeArray V c) (fun t _ => tile_flushed V c t) tiles_cover

end Cert.KernelIdeal.NodeArray

end
-- ==== Proof.BridgeFold.lean ====
/-
  What the node stage's region finds in its input arrays, and what the program returns, as functions of the program's
  arguments and of the two arrays the edge stage leaves.

  Between the two stages the host widens the messages to 32 bits, sums the messages and the position shifts of the edges
  of each node (two scatter-adds into zeros, indexed by the edges' first end nodes), and cuts the node stage's stacked
  first weight matrix into its two 128-row blocks.  After the node stage it adds the summed shifts to the positions.  No
  operation writes an argument, so every argument is read as launched.
-/
import proofs.«181461_j11742440587289_2_alg».proof.Proof.KernelIdealFrame
import proofs.«181461_j11742440587289_2_alg».proof.Proof.Gen.ReferenceIdeal.Read
import proofs.«181461_j11742440587289_2_alg».proof.Proof.Spec
import proofs.«181461_j11742440587289_2_alg».proof.Proof.BridgeEntry
import proofs.«181461_j11742440587289_2_alg».proof.Proof.NodeArray
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.ValueIdx Idealize.ShloMosaic.StableHlo
open Cert.KernelIdeal Cert.KernelIdeal.Gen Cert.GraphLayer

variable (m : (ℓ : Loc nD τ sig) → Buf (Elt Ideal) ℓ) (ρ : Dev nD → PrngReg) (c : Dev nD)

/-! ## The arguments the node stage reads, and the positions, are as launched -/

theorem fold_arg0 : W3 m ρ c (Proc.devRef .tc main_arg0) = m ((c : Thread nD τ).loc main_arg0) := by
  have h : W3 m ρ c (Proc.devRef .tc main_arg0) = W2 m ρ c (Proc.devRef .tc main_arg0) := by
    show StableHlo.after hostOps1 (W2 m ρ c) _ = _
    after_results_simp
  rw [h, W2_of_ne m ρ c main_arg0 (by decide)]
  exact entry_arg0 m ρ c

theorem fold_arg8 : W3 m ρ c (Proc.devRef .tc main_arg8) = m ((c : Thread nD τ).loc main_arg8) := by
  have h : W3 m ρ c (Proc.devRef .tc main_arg8) = W2 m ρ c (Proc.devRef .tc main_arg8) := by
    show StableHlo.after hostOps1 (W2 m ρ c) _ = _
    after_results_simp
  rw [h, W2_of_ne m ρ c main_arg8 (by decide)]
  exact entry_arg8 m ρ c

theorem fold_arg9 : W3 m ρ c (Proc.devRef .tc main_arg9) = m ((c : Thread nD τ).loc main_arg9) := by
  have h : W3 m ρ c (Proc.devRef .tc main_arg9) = W2 m ρ c (Proc.devRef .tc main_arg9) := by
    show StableHlo.after hostOps1 (W2 m ρ c) _ = _
    after_results_simp
  rw [h, W2_of_ne m ρ c main_arg9 (by decide)]
  exact entry_arg9 m ρ c

theorem fold_arg10 : W3 m ρ c (Proc.devRef .tc main_arg10) = m ((c : Thread nD τ).loc main_arg10) := by
  have h : W3 m ρ c (Proc.devRef .tc main_arg10) = W2 m ρ c (Proc.devRef .tc main_arg10) := by
    show StableHlo.after hostOps1 (W2 m ρ c) _ = _
    after_results_simp
  rw [h, W2_of_ne m ρ c main_arg10 (by decide)]
  exact entry_arg10 m ρ c

theorem fold_arg1 : W3 m ρ c (Proc.devRef .tc main_arg1) = m ((c : Thread nD τ).loc main_arg1) := by
  have h : W3 m ρ c (Proc.devRef .tc main_arg1) = W2 m ρ c (Proc.devRef .tc main_arg1) := by
    show StableHlo.after hostOps1 (W2 m ρ c) _ = _
    after_results_simp
  rw [h, W2_of_ne m ρ c main_arg1 (by decide)]
  exact entry_arg1 m ρ c

/-! ## The two 128-row blocks of the node stage's stacked first weight matrix -/

theorem fold_v47 : (W3 m ρ c (Proc.devRef .tc main_v47) : S128x128.Idx → EReal)
    = rows128 0 (by omega) ((m ((c : Thread nD τ).loc main_arg7)) : S256x128.Idx → EReal) := by
  show StableHlo.after hostOps1 (W2 m ρ c) _ = _
  after_results_simp
  rw [W2_of_ne m ρ c main_arg7 (by decide), entry_arg7 m ρ c]
  funext j
  unfold rows128
  exact extractStridedSlice_apply ![0, 0] (m ((c : Thread nD τ).loc main_arg7)) slices_S256x128_S128x128_0_0 j _ (fun a => match a with
    | ⟨0, _⟩ => by show 0 + (j 0).val = 0 + (j 0).val; rfl
    | ⟨1, _⟩ => by show (j 1).val = 0 + (j 1).val; omega)

theorem fold_v48 : (W3 m ρ c (Proc.devRef .tc main_v48) : S128x128.Idx → EReal)
    = rows128 128 (by omega) ((m ((c : Thread nD τ).loc main_arg7)) : S256x128.Idx → EReal) := by
  show StableHlo.after hostOps1 (W2 m ρ c) _ = _
  after_results_simp
  rw [W2_of_ne m ρ c main_arg7 (by decide), entry_arg7 m ρ c]
  funext j
  unfold rows128
  exact extractStridedSlice_apply ![128, 0] (m ((c : Thread nD τ).loc main_arg7)) slices_S256x128_S128x128_128_0 j _ (fun a => match a with
    | ⟨0, _⟩ => by show 128 + (j 0).val = 128 + (j 0).val; rfl
    | ⟨1, _⟩ => by show (j 1).val = 0 + (j 1).val; omega)

/-! ## The summed messages and the summed position shifts -/

/-- The edge stage's message array, as the host reads it after the stage. -/
theorem exit_messages : W2 m ρ c (Proc.devRef .tc main_v39_0) = (dat0 (V1 m ρ) c).arrAt 11 cfg0.N := W2_arr m ρ c 11

/-- The edge stage's position-shift array, as the host reads it after the stage. -/
theorem exit_shifts : W2 m ρ c (Proc.devRef .tc main_v39_1) = (dat0 (V1 m ρ) c).arrAt 12 cfg0.N := W2_arr m ρ c 12

/-- The edges' first end nodes are untouched by the edge stage. -/
theorem exit_v1 : W2 m ρ c (Proc.devRef .tc main_v1) = Cert.ReferenceIdeal.Read.val_main_v1 (F := Ideal) (m ((c : Thread nD τ).loc main_arg2)) :=
  (W2_of_ne m ρ c main_v1 (by decide)).trans (entry_v1 m ρ c)

theorem fold_v43 : W3 m ρ c (Proc.devRef .tc main_v43)
    = Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 (Cert.ReferenceIdeal.Read.val_main_v1 (F := Ideal) (m ((c : Thread nD τ).loc main_arg2))))
        (extf .f32 ((dat0 (V1 m ρ) c).arrAt 11 cfg0.N) bitsLt_bf16_f32) := by
  show StableHlo.after hostOps1 (W2 m ρ c) _ = _
  after_results_simp
  rw [exit_v1 m ρ c, exit_messages m ρ c]

theorem fold_v46 : W3 m ρ c (Proc.devRef .tc main_v46)
    = Host.scatterAdd scatter_S50000x3_S800000x1_S800000x3_1_0_0_1
        (broadcastInDim S50000x3 ![] bcast_S_S50000x3 (constant (F := Ideal) S_ .f32 0x00000000#32))
        (broadcastInDim S800000x1 ![0] bcast_S800000_S800000x1_0 (Cert.ReferenceIdeal.Read.val_main_v1 (F := Ideal) (m ((c : Thread nD τ).loc main_arg2))))
        ((dat0 (V1 m ρ) c).arrAt 12 cfg0.N) := by
  show StableHlo.after hostOps1 (W2 m ρ c) _ = _
  after_results_simp
  rw [exit_v1 m ρ c, exit_shifts m ρ c]

/-! ## What the program returns -/

theorem fold_v49 : W5 m ρ c (Proc.devRef .tc main_v49) = Cert.KernelIdeal.NodeArray.nodeArray (V3 m ρ) c := by
  have h : W5 m ρ c (Proc.devRef .tc main_v49) = W4 m ρ c (Proc.devRef .tc main_v49) := by
    show StableHlo.after hostOps2 (W4 m ρ c) _ = _
    after_results_simp
  rw [h]
  exact (W4_arr m ρ c 7).trans (Cert.KernelIdeal.NodeArray.node_array (V3 m ρ) c)

theorem fold_v50 : @Eq (FVec Ideal S50000x3 .f32) (W5 m ρ c (Proc.devRef .tc main_v50))
    (addf (m ((c : Thread nD τ).loc main_arg1)) (W3 m ρ c (Proc.devRef .tc main_v46))) := by
  have h : @Eq (FVec Ideal S50000x3 .f32) (W5 m ρ c (Proc.devRef .tc main_v50))
      (addf (W4 m ρ c (Proc.devRef .tc main_arg1)) (W4 m ρ c (Proc.devRef .tc main_v46))) := by
    show StableHlo.after hostOps2 (W4 m ρ c) _ = _
    after_results_simp
  rw [h, W4_of_ne m ρ c main_arg1 (by decide), W4_of_ne m ρ c main_v46 (by decide), fold_arg1 m ρ c]

end Cert.Bridge

end
-- ==== Proof.Bridge.lean ====
/-
  The kernel program's two results are the reference's.

  The new node features: the node stage's region leaves, at node n, the node row function of row n of the features and of
  the summed messages (NodeArray.lean); the summed messages are the segment sum, over each edge's first end node, of the
  edge stage's message array, which is the reference's message stage (BridgeMid.lean) summed by the same operation over the
  same indices; and the reference's last stage read at an index is the same row function (RefStages.lean).
  The new node positions: the positions plus the segment sum of the edge stage's shift array, which is the reference's
  shift stage, again summed by the same operation over the same indices.
-/
import proofs.«181461_j11742440587289_2_alg».proof.Proof.BridgeMid
import proofs.«181461_j11742440587289_2_alg».proof.Proof.BridgeFold
import proofs.«181461_j11742440587289_2_alg».proof.Proof.NodeArray

set_option maxRecDepth 16384

noncomputable section

namespace Cert.Bridge

open Idealize.ShloMosaic Idealize.ShloMosaic.TcCoe Idealize.SL.Sem Idealize.ShloMosaic.ValueIdx Idealize.ShloMosaic.StableHlo
open Cert.KernelIdeal Cert.KernelIdeal.Gen Cert.GraphLayer

variable (m : (ℓ : Loc nD τ sig) → Buf (Elt Ideal) ℓ) (ρ : Dev nD → PrngReg) (c : Dev nD)

/-- The summed messages the node stage finds are the reference's summed messages. -/
theorem summed_messages : W3 m ρ c (Proc.devRef .tc main_v43)
    = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [fold_v43, Cert.KernelIdeal.EdgeArray.message_array, messages_eq]
  rfl

/-- The new node features. -/
theorem result0 : W5 m ρ c (Proc.devRef .tc main_v49)
    = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [fold_v49]
  funext i
  obtain ⟨n, q, rfl⟩ : ∃ (n : Fin 50000) (q : Fin 128), i = ix2 n q := ⟨i 0, i 1, eq_ix2 i⟩
  rw [Cert.ReferenceIdeal.Stages.node_eq, Cert.KernelIdeal.NodeArray.nodeArray_apply]
  rw [show V3 m ρ c main_arg0 = _ from fold_arg0 m ρ c,
    show V3 m ρ c main_v43 = _ from summed_messages m ρ c,
    show (V3 m ρ c main_v47 : S128x128.Idx → EReal) = _ from fold_v47 m ρ c,
    show (V3 m ρ c main_v48 : S128x128.Idx → EReal) = _ from fold_v48 m ρ c,
    show V3 m ρ c main_arg8 = _ from fold_arg8 m ρ c,
    show V3 m ρ c main_arg9 = _ from fold_arg9 m ρ c,
    show V3 m ρ c main_arg10 = _ from fold_arg10 m ρ c]

/-- The new node positions. -/
theorem result1 : W5 m ρ c (Proc.devRef .tc main_v50)
    = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) := by
  rw [fold_v50, fold_v46, Cert.KernelIdeal.EdgeArray.shift_array, shifts_eq]
  rfl

end Cert.Bridge

end
-- ==== Proof.lean ====
/-
  The certificate of an equivariant graph layer.

  The kernel program is two tiled kernels with gathers and segment sums around them: over the edges, an edge MLP that
  gives each edge its message row and its position shift; over the nodes, a node MLP on each node's features and the sum of
  its edges' messages. The reference program computes the same two results — the nodes' new features and new positions — with
  whole-array operations. On the extended reals, from memories that agree on the thirteen arguments, both programs run to
  the end, leave the arguments unchanged, and end with equal results; each program by itself runs to the end and leaves its
  arguments unchanged; and the kernel program's idealization rewrote no operation.
-/
import proofs.«181461_j11742440587289_2_alg».proof.Defs
import proofs.«181461_j11742440587289_2_alg».proof.Proof.Gen.Kernel
import proofs.«181461_j11742440587289_2_alg».proof.Proof.Gen.Kernel.Skeleton
import proofs.«181461_j11742440587289_2_alg».proof.Proof.KernelLaunch
import proofs.«181461_j11742440587289_2_alg».proof.Proof.Gen.Kernel.Points
import proofs.«181461_j11742440587289_2_alg».proof.Proof.KernelFrame
import proofs.«181461_j11742440587289_2_alg».proof.Proof.Gen.KernelIdeal
import proofs.«181461_j11742440587289_2_alg».proof.Proof.Gen.KernelIdeal.Skeleton
import proofs.«181461_j11742440587289_2_alg».proof.Proof.KernelIdealLaunch
import proofs.«181461_j11742440587289_2_alg».proof.Proof.Gen.KernelIdeal.Points
import proofs.«181461_j11742440587289_2_alg».proof.Proof.KernelIdealFrame
import proofs.«181461_j11742440587289_2_alg».proof.Proof.Gen.ReferenceIdeal
import proofs.«181461_j11742440587289_2_alg».proof.Proof.Gen.ReferenceIdeal.Run
import proofs.«181461_j11742440587289_2_alg».proof.Proof.Gen.ReferenceIdeal.Read
import proofs.«181461_j11742440587289_2_alg».proof.Proof.Gen.Pre_finite_inputs
import proofs.«181461_j11742440587289_2_alg».proof.Proof.KernelRun
import proofs.«181461_j11742440587289_2_alg».proof.Proof.Bridge
import Idealize.ShloMosaic.Adequacy
import Idealize.ShloMosaic.Init

noncomputable section

namespace Cert.Proof

open Idealize.ShloMosaic Idealize.ShloMosaic.TcCoe Idealize.SL.Sem

/-- The kernel program runs to the end and leaves its arguments unchanged. -/
theorem frame_k : Cert.frame_Kernel := fun m ρ _ => Cert.Kernel.Gen.frame m ρ

/-- So does the kernel program on the extended reals. -/
theorem frame_ki : Cert.frame_KernelIdeal := fun m ρ _ => Cert.KernelIdeal.Gen.frame m ρ

/-- So does the reference program: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On the extended reals, from memories that agree on the arguments, the kernel program's two results are the reference
    program's: the nodes' new features and the nodes' new positions. -/
theorem algebraic : Cert.algebraic_KernelIdeal_ReferenceIdeal := by
  intro m ρ m' ρ' _ hagree
  refine ⟨fun c => Cert.KernelIdeal.Gen.W5 m ρ c (Proc.devRef .tc Cert.KernelIdeal.main_v49),
    fun c => Cert.KernelIdeal.Gen.W5 m ρ c (Proc.devRef .tc Cert.KernelIdeal.main_v50),
    Cert.KernelIdeal.Results.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v60_eq]
    obtain ⟨h0, h1, h2, h3, h4, h5, h6, h7, h8, h9, h10, h11, h12⟩ := hagree c
    rw [h0, h1, h2, h3, h4, h5, h6, h7, h8, h9, h10]
    exact (Cert.Bridge.result0 m ρ c).symm
  · rw [Cert.ReferenceIdeal.Read.val_main_v76_eq]
    obtain ⟨h0, h1, h2, h3, h4, h5, h6, h7, h8, h9, h10, h11, h12⟩ := hagree c
    rw [h0, h1, h2, h3, h4, h5, h6, h11, h12]
    exact (Cert.Bridge.result1 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
